-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S128x256 : Shape := ⟨2, ![128, 256]⟩
abbrev S128 : Shape := ⟨1, ![128]⟩
abbrev S2x625000 : Shape := ⟨2, ![2, 625000]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S50000x256 .f32) (main_arg1 : FVec F S128x256 .f32) (main_arg2 : FVec F S128 .f32) (main_arg3 : IVec S2x625000 32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S128x256 .f32 := Host.absf main_arg1
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S50000x256 : Shape := ⟨2, ![50000, 256]⟩
abbrev S128x256 : Shape := ⟨2, ![128, 256]⟩
abbrev S128 : Shape := ⟨1, ![128]⟩
abbrev S2x625000 : Shape := ⟨2, ![2, 625000]⟩
abbrev S1x625000 : Shape := ⟨2, ![1, 625000]⟩
abbrev S625000 : Shape := ⟨1, ![625000]⟩
abbrev S_ : Shape := ⟨0, ![]⟩
abbrev S50000 : Shape := ⟨1, ![50000]⟩
abbrev S625000x1 : Shape := ⟨2, ![625000, 1]⟩
abbrev S50000x1 : Shape := ⟨2, ![50000, 1]⟩
abbrev S50000x128 : Shape := ⟨2, ![50000, 128]⟩
abbrev S5000x256 : Shape := ⟨2, ![5000, 256]⟩
abbrev S5000x1 : Shape := ⟨2, ![5000, 1]⟩
abbrev S5000x128 : Shape := ⟨2, ![5000, 128]⟩
abbrev S256x128 : Shape := ⟨2, ![256, 128]⟩
abbrev S1x128 : Shape := ⟨2, ![1, 128]⟩
abbrev S625000x128 : Shape := ⟨2, ![625000, 128]⟩

abbrev nBuf : Space → Nat
  | .hbm => 42
  | .vmem => 8
  | .smem => 0
  | _ => 0

abbrev bufTy : (tb : Table) → Fin (tcTables nBuf tb) → BufTy
  | .hbm, ⟨0, _⟩ => ⟨S50000x256, .f32⟩
  | .hbm, ⟨1, _⟩ => ⟨S128x256, .f32⟩
  | .hbm, ⟨2, _⟩ => ⟨S128, .f32⟩
  | .hbm, ⟨3, _⟩ => ⟨S2x625000, .i32⟩
  | .hbm, ⟨4, _⟩ => ⟨S1x625000, .i32⟩
  | .hbm, ⟨5, _⟩ => ⟨S625000, .i32⟩
  | .hbm, ⟨6, _⟩ => ⟨S1x625000, .i32⟩
  | .hbm, ⟨7, _⟩ => ⟨S625000, .i32⟩
  | .hbm, ⟨8, _⟩ => ⟨S_, .f32⟩
  | .hbm, ⟨9, _⟩ => ⟨S625000, .f32⟩
  | .hbm, ⟨10, _⟩ => ⟨S_, .f32⟩
  | .hbm, ⟨11, _⟩ => ⟨S50000, .f32⟩
  | .hbm, ⟨12, _⟩ => ⟨S625000x1, .i32⟩
  | .hbm, ⟨13, _⟩ => ⟨S50000, .f32⟩
  | .hbm, ⟨14, _⟩ => ⟨S_, .f32⟩
  | .hbm, ⟨15, _⟩ => ⟨S50000, .f32⟩
  | .hbm, ⟨16, _⟩ => ⟨S50000, .i1⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S50000x128, .f32⟩
  | .hbm, ⟨26, _⟩ => ⟨S_, .i32⟩
  | .hbm, ⟨27, _⟩ => ⟨S625000, .i32⟩
  | .hbm, ⟨28, _⟩ => ⟨S625000, .i1⟩
  | .hbm, ⟨29, _⟩ => ⟨S_, .i32⟩
  | .hbm, ⟨30, _⟩ => ⟨S625000, .i32⟩
  | .hbm, ⟨31, _⟩ => ⟨S625000, .i32⟩
  | .hbm, ⟨32, _⟩ => ⟨S625000, .i32⟩
  | .hbm, ⟨33, _⟩ => ⟨S625000x1, .i32⟩
  | .hbm, ⟨34, _⟩ => ⟨S625000x128, .f32⟩
  | .hbm, ⟨35, _⟩ => ⟨S_, .f32⟩
  | .hbm, ⟨36, _⟩ => ⟨S50000x128, .f32⟩
  | .hbm, ⟨37, _⟩ => ⟨S625000x1, .i32⟩
  | .hbm, ⟨38, _⟩ => ⟨S50000x128, .f32⟩
  | .hbm, ⟨39, _⟩ => ⟨S50000x1, .f32⟩
  | .hbm, ⟨40, _⟩ => ⟨S50000x128, .f32⟩
  | .hbm, ⟨41, _⟩ => ⟨S50000x128, .f32⟩
  | .local _ .vmem, ⟨0, _⟩ => ⟨S5000x256, .f32⟩
  | .local _ .vmem, ⟨1, _⟩ => ⟨S5000x256, .f32⟩
  | .local _ .vmem, ⟨2, _⟩ => ⟨S128x256, .f32⟩
  | .local _ .vmem, ⟨3, _⟩ => ⟨S128, .f32⟩
  | .local _ .vmem, ⟨4, _⟩ => ⟨S5000x1, .f32⟩
  | .local _ .vmem, ⟨5, _⟩ => ⟨S5000x1, .f32⟩
  | .local _ .vmem, ⟨6, _⟩ => ⟨S5000x128, .f32⟩
  | .local _ .vmem, ⟨7, _⟩ => ⟨S5000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c : Ref sig .tc := ⟨.hbm, 26, rfl⟩
abbrev main_v17 : Ref sig .tc := ⟨.hbm, 27, rfl⟩
abbrev main_v18 : Ref sig .tc := ⟨.hbm, 28, rfl⟩
abbrev main_c_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S2x625000_S1x625000_0_0 : S2x625000.Slices ![0, 0] S1x625000
  shapeCasts_S1x625000_S625000 : S1x625000.ShapeCasts S625000
  slices_S2x625000_S1x625000_1_0 : S2x625000.Slices ![1, 0] S1x625000
  bcast_S_S625000 : S_.BroadcastsInDim S625000 (![] : Fin 0 → Fin S625000.rank)
  bcast_S_S50000 : S_.BroadcastsInDim S50000 (![] : Fin 0 → Fin S50000.rank)
  bcast_S625000_S625000x1_0 : S625000.BroadcastsInDim S625000x1 (![0] : Fin 1 → Fin S625000x1.rank)
  shapeCasts_S50000_S50000x1 : S50000.ShapeCasts S50000x1
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  transposes_S128x256_p1_0_S256x128 : S128x256.Transposes [1, 0] S256x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S5000x128_S5000x128_0_0 : ∀ a, (![0, 0] : Fin 2 → Nat) a + S5000x128.size a ≤ S5000x128.size a
  h_S5000x128 : 0 < S5000x128.numel
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  scatter_S50000_S625000x1_S625000_n_0_0_1_wf : ScatterDims.WF S50000 S625000x1 S625000 [] [0] [0] 1
  dot_S5000x256_S256x128_S5000x128_1_0_0_1_n_n_wf : DotDims.WF S5000x256 S256x128 S5000x128 [1] [0] [0] [1] [] []
  gather_S50000x128_S625000x1_S625000x128_1_0_n_n_0_1_1128_wf : GatherDims.WF S50000x128 S625000x1 S625000x128 [1] [0] [] [0] [] 1 ![1, 128]
  scatter_S50000x128_S625000x1_S625000x128_1_0_0_1_wf : ScatterDims.WF S50000x128 S625000x1 S625000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x1.size a ≤ S50000x1.size a
  hwx0_3 : ∀ i : grid0.Coords, EltTy.bits .f32 = 32 ∨ (Rect.block (s := S50000x1) S5000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)

variable [Facts₀]

def scatter_S50000_S625000x1_S625000_n_0_0_1 : ScatterDims S50000 S625000x1 S625000 where
  updateWindowDims := []
  insertedWindowDims := [0]
  scatterDimsToOperandDims := [0]
  indexVectorDim := 1
  wf := scatter_S50000_S625000x1_S625000_n_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S625000x1_S625000x128_1_0_n_n_0_1_1128 : GatherDims S50000x128 S625000x1 S625000x128 where
  offsetDims := [1]
  collapsedSliceDims := [0]
  operandBatchingDims := []
  startIndicesBatchingDims := []
  startIndexMap := [0]
  indexVectorDim := 1
  sliceSizes := ![1, 128]
  wf := gather_S50000x128_S625000x1_S625000x128_1_0_n_n_0_1_1128_wf
def scatter_S50000x128_S625000x1_S625000x128_1_0_0_1 : ScatterDims S50000x128 S625000x1 S625000x128 where
  updateWindowDims := [1]
  insertedWindowDims := [0]
  scatterDimsToOperandDims := [0]
  indexVectorDim := 1
  wf := scatter_S50000x128_S625000x1_S625000x128_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S5000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v16) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S50000x256 : Shape := ⟨2, ![50000, 256]⟩
abbrev S128x256 : Shape := ⟨2, ![128, 256]⟩
abbrev S128 : Shape := ⟨1, ![128]⟩
abbrev S2x625000 : Shape := ⟨2, ![2, 625000]⟩
abbrev S256x128 : Shape := ⟨2, ![256, 128]⟩
abbrev S50000x128 : Shape := ⟨2, ![50000, 128]⟩
abbrev S1x128 : Shape := ⟨2, ![1, 128]⟩
abbrev S1x625000 : Shape := ⟨2, ![1, 625000]⟩
abbrev S625000 : Shape := ⟨1, ![625000]⟩
abbrev S_ : Shape := ⟨0, ![]⟩
abbrev S50000 : Shape := ⟨1, ![50000]⟩
abbrev S625000x1 : Shape := ⟨2, ![625000, 1]⟩
abbrev S625000x128 : Shape := ⟨2, ![625000, 128]⟩
abbrev S50000x1 : Shape := ⟨2, ![50000, 1]⟩

abbrev nBuf : Space → Nat
  | .hbm => 57
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S128x256, .f32⟩
  | .hbm, ⟨2, _⟩ => ⟨S128, .f32⟩
  | .hbm, ⟨3, _⟩ => ⟨S2x625000, .i32⟩
  | .hbm, ⟨4, _⟩ => ⟨S256x128, .f32⟩
  | .hbm, ⟨5, _⟩ => ⟨S50000x128, .f32⟩
  | .hbm, ⟨6, _⟩ => ⟨S1x128, .f32⟩
  | .hbm, ⟨7, _⟩ => ⟨S50000x128, .f32⟩
  | .hbm, ⟨8, _⟩ => ⟨S50000x128, .f32⟩
  | .hbm, ⟨9, _⟩ => ⟨S1x625000, .i32⟩
  | .hbm, ⟨10, _⟩ => ⟨S625000, .i32⟩
  | .hbm, ⟨11, _⟩ => ⟨S1x625000, .i32⟩
  | .hbm, ⟨12, _⟩ => ⟨S625000, .i32⟩
  | .hbm, ⟨13, _⟩ => ⟨S_, .f32⟩
  | .hbm, ⟨14, _⟩ => ⟨S625000, .f32⟩
  | .hbm, ⟨15, _⟩ => ⟨S_, .f32⟩
  | .hbm, ⟨16, _⟩ => ⟨S50000, .f32⟩
  | .hbm, ⟨17, _⟩ => ⟨S625000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S625000, .i32⟩
  | .hbm, ⟨31, _⟩ => ⟨S625000, .i1⟩
  | .hbm, ⟨32, _⟩ => ⟨S_, .i32⟩
  | .hbm, ⟨33, _⟩ => ⟨S625000, .i32⟩
  | .hbm, ⟨34, _⟩ => ⟨S625000, .i32⟩
  | .hbm, ⟨35, _⟩ => ⟨S625000, .i32⟩
  | .hbm, ⟨36, _⟩ => ⟨S625000x1, .i32⟩
  | .hbm, ⟨37, _⟩ => ⟨S625000x128, .f32⟩
  | .hbm, ⟨38, _⟩ => ⟨S_, .i32⟩
  | .hbm, ⟨39, _⟩ => ⟨S625000, .i32⟩
  | .hbm, ⟨40, _⟩ => ⟨S625000, .i1⟩
  | .hbm, ⟨41, _⟩ => ⟨S_, .i32⟩
  | .hbm, ⟨42, _⟩ => ⟨S625000, .i32⟩
  | .hbm, ⟨43, _⟩ => ⟨S625000, .i32⟩
  | .hbm, ⟨44, _⟩ => ⟨S625000, .i32⟩
  | .hbm, ⟨45, _⟩ => ⟨S625000x1, .i32⟩
  | .hbm, ⟨46, _⟩ => ⟨S625000, .f32⟩
  | .hbm, ⟨47, _⟩ => ⟨S625000x1, .f32⟩
  | .hbm, ⟨48, _⟩ => ⟨S625000x128, .f32⟩
  | .hbm, ⟨49, _⟩ => ⟨S625000x128, .f32⟩
  | .hbm, ⟨50, _⟩ => ⟨S_, .f32⟩
  | .hbm, ⟨51, _⟩ => ⟨S50000x128, .f32⟩
  | .hbm, ⟨52, _⟩ => ⟨S625000x1, .i32⟩
  | .hbm, ⟨53, _⟩ => ⟨S50000x128, .f32⟩
  | .hbm, ⟨54, _⟩ => ⟨S50000x1, .f32⟩
  | .hbm, ⟨55, _⟩ => ⟨S50000x128, .f32⟩
  | .hbm, ⟨56, _⟩ => ⟨S50000x128, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_c : Ref sig .tc := ⟨.hbm, 29, rfl⟩
abbrev main_v20 : Ref sig .tc := ⟨.hbm, 30, rfl⟩
abbrev main_v21 : Ref sig .tc := ⟨.hbm, 31, rfl⟩
abbrev main_c_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_5 : Ref sig .tc := ⟨.hbm, 38, rfl⟩
abbrev main_v27 : Ref sig .tc := ⟨.hbm, 39, rfl⟩
abbrev main_v28 : Ref sig .tc := ⟨.hbm, 40, rfl⟩
abbrev main_c_6 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]

class Facts₀ : Prop where
  transposes_S128x256_S256x128_1_0 : S128x256.Transposes [1, 0] S256x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S2x625000_S1x625000_0_0 : S2x625000.Slices ![0, 0] S1x625000
  shapeCasts_S1x625000_S625000 : S1x625000.ShapeCasts S625000
  slices_S2x625000_S1x625000_1_0 : S2x625000.Slices ![1, 0] S1x625000
  bcast_S_S625000 : S_.BroadcastsInDim S625000 (![] : Fin 0 → Fin S625000.rank)
  bcast_S_S50000 : S_.BroadcastsInDim S50000 (![] : Fin 0 → Fin S50000.rank)
  bcast_S625000_S625000x1_0 : S625000.BroadcastsInDim S625000x1 (![0] : Fin 1 → Fin S625000x1.rank)
  bcast_S625000x1_S625000x128_0_1 : S625000x1.BroadcastsInDim S625000x128 (![0, 1] : Fin 2 → Fin S625000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  dot_S50000x256_S256x128_S50000x128_1_0_0_1_n_n_wf : DotDims.WF S50000x256 S256x128 S50000x128 [1] [0] [0] [1] [] []
  scatter_S50000_S625000x1_S625000_n_0_0_1_wf : ScatterDims.WF S50000 S625000x1 S625000 [] [0] [0] 1
  gather_S50000x128_S625000x1_S625000x128_1_0_n_n_0_1_1128_wf : GatherDims.WF S50000x128 S625000x1 S625000x128 [1] [0] [] [0] [] 1 ![1, 128]
  gather_S50000_S625000x1_S625000_n_0_n_n_0_1_1_wf : GatherDims.WF S50000 S625000x1 S625000 [] [0] [] [0] [] 1 ![1]
  scatter_S50000x128_S625000x1_S625000x128_1_0_0_1_wf : ScatterDims.WF S50000x128 S625000x1 S625000x128 [1] [0] [0] 1

variable [Facts₀]

def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def scatter_S50000_S625000x1_S625000_n_0_0_1 : ScatterDims S50000 S625000x1 S625000 where
  updateWindowDims := []
  insertedWindowDims := [0]
  scatterDimsToOperandDims := [0]
  indexVectorDim := 1
  wf := scatter_S50000_S625000x1_S625000_n_0_0_1_wf
def gather_S50000x128_S625000x1_S625000x128_1_0_n_n_0_1_1128 : GatherDims S50000x128 S625000x1 S625000x128 where
  offsetDims := [1]
  collapsedSliceDims := [0]
  operandBatchingDims := []
  startIndicesBatchingDims := []
  startIndexMap := [0]
  indexVectorDim := 1
  sliceSizes := ![1, 128]
  wf := gather_S50000x128_S625000x1_S625000x128_1_0_n_n_0_1_1128_wf
def gather_S50000_S625000x1_S625000_n_0_n_n_0_1_1 : GatherDims S50000 S625000x1 S625000 where
  offsetDims := []
  collapsedSliceDims := [0]
  operandBatchingDims := []
  startIndicesBatchingDims := []
  startIndexMap := [0]
  indexVectorDim := 1
  sliceSizes := ![1]
  wf := gather_S50000_S625000x1_S625000_n_0_n_n_0_1_1_wf
def scatter_S50000x128_S625000x1_S625000x128_1_0_0_1 : ScatterDims S50000x128 S625000x1 S625000x128 where
  updateWindowDims := [1]
  insertedWindowDims := [0]
  scatterDimsToOperandDims := [0]
  indexVectorDim := 1
  wf := scatter_S50000x128_S625000x1_S625000x128_1_0_0_1_wf

class Facts : Prop extends Facts₀ where

variable [Facts]
-- ==== Proof.LibPlainDot.lean ====
/-
  A plain matrix product read at an entry.

  For the dimension numbers of an `M×K` by `K×N` product (contract the left operand's axis 1 with the right
  operand's axis 0, no batch axes), a `tpu.matmul` into the zero accumulator, read on the extended reals at the
  entry `(p, q)`, is `∑ k, lhs (p, k) · rhs (k, q)`; so is the host's `dot_general`. Any record with these six lists
  is `DotDims.plain M K N` (the well-formedness field is a proposition), so a printed record is rewritten to it by `rfl`.
-/
import Idealize.ShloMosaic.PureOps.Ideal.Laws
import Idealize.ShloMosaic.Lib.ValueIdx

noncomputable section

namespace Cert.PlainDot

open Idealize.ShloMosaic Idealize.ShloMosaic.ValueIdx
open scoped BigOperators

variable {M K N : Nat}

/-- The left operand's index at result entry `j` and contraction position `k` is `(j 0, k)`. -/
theorem lhsIdx_eq (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ =>
    show ((DotDims.plain M K N).lhsIdx j _ 0).val = (j 0).val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ => exact ((DotDims.plain M K N).lhsIdx_val_of_single rfl j _).trans hk

/-- The right operand's index at result entry `j` and contraction position `k` is `(k, j 1)`. -/
theorem rhsIdx_eq (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single rfl j _).trans hk
  | ⟨1, _⟩ =>
    show ((DotDims.plain M K N).rhsIdx j _ 1).val = (j 1).val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- The contraction sum of a plain product at `(p, q)` is the sum over `k` of `lhs (p, k) · rhs (k, q)`. -/
theorem contraction_eq (lhs : (⟨2, ![M, K]⟩ : Shape).Idx → EReal) (rhs : (⟨2, ![K, N]⟩ : Shape).Idx → EReal) (p : Fin M) (q : Fin N) :
    (∑ k : (DotDims.plain M K N).contr.Idx, lhs ((DotDims.plain M K N).lhsIdx (ix2 p q) k) * rhs ((DotDims.plain M K N).rhsIdx (ix2 p q) k))
      = ∑ k : Fin K, lhs (ix2 p k) * rhs (ix2 k q) := by
  rw [← Equiv.sum_comp (contrEquiv1 (DotDims.plain M K N) K rfl rfl).symm]
  refine Finset.sum_congr rfl fun k _ => ?_
  rw [lhsIdx_eq, rhsIdx_eq]
  rfl

/-- A `tpu.matmul` of plain dimension numbers into the zero accumulator, at `(p, q)`. -/
theorem matmul_zero_apply (prec : Option ContractPrecision) (lhs : FVec Ideal ⟨2, ![M, K]⟩ .f32) (rhs : FVec Ideal ⟨2, ![K, N]⟩ .f32)
    (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact contraction_eq lhs rhs p q

/-- The host's `dot_general` of plain dimension numbers, at `(p, q)`. -/
theorem dotGeneral_apply (prec : Option ContractPrecision) (sched : HostSchedule) (lhs : FVec Ideal ⟨2, ![M, K]⟩ .f32)
    (rhs : FVec Ideal ⟨2, ![K, N]⟩ .f32) (p : Fin M) (q : Fin N) :
    FloatOps.dotGeneral (DotDims.plain M K N) prec sched lhs rhs (ix2 p q) = ∑ k : Fin K, lhs (ix2 p k) * rhs (ix2 k q) := by
  rw [Ideal.dotGeneral_apply]
  exact contraction_eq lhs rhs p q

end Cert.PlainDot

end
-- ==== Proof.LibKeepdims.lean ====
/-
  Column vectors read at an index: what a keepdims row reduction needs.

  A row reduction that keeps its axis (a sum along the lanes of an [a, b] array, kept as an [a, 1] column and
  spread back over [a, b]) prints as three operations: the lane sum [a, b] → [a], a shape cast [a] → [a, 1] and
  a broadcast [a, 1] → [a, b]. Each is read here at an index written with explicit coordinates:
    • the sum, at p, is ∑_k of the source at (p, k);
    • the cast, at (p, 0), is the vector at p (row-major position p · 1 + 0 = p on both sides);
    • the broadcast, at (p, q), is the column at (p, 0).
  All three are stated for any extents a and b.
-/
import Idealize.ShloMosaic.Lib.Pipeline.Value
import Idealize.ShloMosaic.Lib.ValueIdx
import Idealize.ShloMosaic.PureOps.Ideal.Laws

namespace Keepdims

open Idealize.ShloMosaic Idealize.ShloMosaic.ValueIdx

variable {α : Type}

/-- A vector of length a viewed as an [a, 1] column reads, at (p, z), the vector at p: the column's second
    coordinate can only be 0, so both indices sit at row-major position p. -/
theorem shapeCast_a_a1_apply {a : ℕ} (v : (⟨1, ![a]⟩ : Shape).Idx → α)
    (h : (⟨1, ![a]⟩ : Shape).ShapeCasts ⟨2, ![a, 1]⟩) (p : Fin a) (z : Fin 1) :
    shapeCast ⟨2, ![a, 1]⟩ v h (ix2 p z) = v (ix1 p) := by
  refine shapeCast_apply v h (ix2 p z) (ix1 p) ?_
  rw [Shape.rowMajor_val_one, Shape.rowMajor_val_two]
  show p.val = p.val * 1 + z.val
  have := z.isLt; omega

/-- An [a, 1] column spread over [a, b] reads, at (p, q), the column at (p, 0): the row coordinate is kept
    (also when a = 1, where it can only be 0) and the unit axis is read at 0. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The index of an [a, b] array that lies over p of the reduced [a] with lane k put back is (p, k). -/
theorem lift_lane {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- On the extended reals the sum of an [a, b] array along its lanes is, at p, the sum over k of the entries
    (p, k): the reduction starts from the zero word, the neutral element of the sum, and there is no rounding
    for the order of the additions to matter. -/
theorem laneSum_apply {a b : ℕ} (src : FVec Ideal ⟨2, ![a, b]⟩ .f32)
    (h : (⟨2, ![a, b]⟩ : Shape).Reduces [1] (⟨1, ![a]⟩ : Shape)) (hφ : FKind.Formats .f32)
    (hacc : (0x00000000#32 : BitVec 32) = 0x00000000#32) (p : Fin a) :
    multiReduction (F := Ideal) .add [1] ⟨1, ![a]⟩ src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_lane h p k)

end Keepdims
-- ==== Proof.KernelBlock.lean ====
/-
  One block of the kernel's output, entry by entry.

  At a grid point the body holds a block of 5000 rows of `x` (5000 × 256), the whole weight matrix `W` (128 × 256),
  the bias `b` (128) and the block's 5000 entries of the node scale as a 5000 × 1 column. It forms the block
  `(x · Wᵀ + b) · scale`: the product contracts the 256 features, with `W` transposed first; the bias is one row
  spread over the 5000 rows; the scale is one column spread over the 128 output features. On the extended reals the
  narrowing of the product's operands to a shorter float format is the identity, so entry `(p, q)` of the block is
      (∑ k, x (p, k) · W (q, k) + b q) · scale (p, 0).
-/
import proofs.«125393_j72086731096478_2_alg».proof.Proof.Gen.KernelIdeal.Skeleton
import proofs.«125393_j72086731096478_2_alg».proof.Proof.LibPlainDot
import proofs.«125393_j72086731096478_2_alg».proof.Proof.LibKeepdims
import Idealize.ShloMosaic.Lib.ValueIdx
import Idealize.ShloMosaic.Lib.ValueLayout
import Idealize.ShloMosaic.Lib.Pipeline.Value

noncomputable section

namespace Cert.KernelIdeal.Block

open Idealize.ShloMosaic Idealize.ShloMosaic.ValueIdx Cert.KernelIdeal Cert.KernelIdeal.Gen
open scoped BigOperators

/-- The affine layer's entry `(p, q)` times the row's scale: what the body stores at `(p, q)` of its block. -/
theorem pay_apply (x0 : Vec Ideal S5000x256 .f32) (x1 : Vec Ideal S128x256 .f32) (x2 : Vec Ideal S128 .f32)
    (x3 : Vec Ideal S5000x1 .f32) (p : Fin 5000) (q : Fin 128) :
    k0_pay1 (F := Ideal) x0 x1 x2 x3 (ix2 p q)
      = ((∑ k : Fin 256, x0 (ix2 p k) * x1 (ix2 q k)) + x2 (ix1 q)) * x3 (ix2 p (0 : Fin 1)) := by
  unfold k0_pay1
  rw [mulf_apply, addf_apply]
  rw [Keepdims.broadcastTo_a1_ab_apply, shapeCast_self]
  rw [broadcastTo_1b_ab_apply, shapeCast_a_1a_apply]
  rw [show dot_S5000x256_S256x128_S5000x128_1_0_0_1_n_n = DotDims.plain 5000 256 128 from rfl]
  refine congrArg (fun s => (s + x2 (ix1 q)) * x3 (ix2 p (0 : Fin 1))) ?_
  refine (Ideal.matmul_constant_zero_apply (DotDims.plain 5000 256 128) none _ _ (ix2 p q)).trans ?_
  refine (Cert.PlainDot.contraction_eq (M := 5000) (K := 256) (N := 128) _ _ p q).trans ?_
  refine Finset.sum_congr rfl fun k _ => ?_
  rw [transpose_ix2_apply]
  rfl

end Cert.KernelIdeal.Block

end
-- ==== Proof.KernelArray.lean ====
/-
  The kernel's output array as one function of the arrays the region finds.

  The grid has ten points; point `t` works on rows `5000·t … 5000·t + 4999`: it is handed that block of `x`, the whole of
  `W` and `b`, and that block of the node-scale column, and writes back the block
      (p, q) ↦ (∑ k, x (5000·t + p, k) · W (q, k) + b q) · scale (5000·t + p, 0).
  Every block is therefore the restriction of ONE function `layer` of the four arrays,
      layer (n, q) = (∑ k, x (n, k) · W (q, k) + b q) · scale (n, 0),
  and the ten blocks tile the 50000 rows (row `n` lies in the block of point `n / 5000`), so after the run the array
  is `layer` everywhere.
-/
import proofs.«125393_j72086731096478_2_alg».proof.Proof.Gen.KernelIdeal.Frame
import proofs.«125393_j72086731096478_2_alg».proof.Proof.KernelBlock
import Idealize.ShloMosaic.Lib.Pipeline.Value
import Idealize.ShloMosaic.Lib.ValueIdx

set_option maxRecDepth 16384

noncomputable section

namespace Cert.KernelIdeal.Array

open Idealize.ShloMosaic Idealize.ShloMosaic.TcCoe Idealize.ShloMosaic.ValueIdx Idealize.SL.Sem
open Cert.KernelIdeal Cert.KernelIdeal.Gen
open Idealize.ShloMosaic.Pipeline (Dat)
open scoped BigOperators

/-- The scaled affine layer: entry `(n, q)` from row `n` of `x`, row `q` of `W`, `b q` and row `n`'s scale. -/
def layer (x : S50000x256.Idx → EReal) (W : S128x256.Idx → EReal) (b : S128.Idx → EReal) (s : S50000x1.Idx → EReal) :
    S50000x128.Idx → EReal :=
  fun i => ((∑ k : Fin 256, x (ix2 (i 0) k) * W (ix2 (i 1) k)) + b (ix1 (i 1))) * s (ix2 (i 0) (0 : Fin 1))

theorem off2 : (![0, 0] : Fin 2 → Nat) = fun _ => 0 := funext fun a => by fin_cases a <;> rfl
theorem off1 : (![0] : Fin 1 → Nat) = fun _ => 0 := funext fun a => by fin_cases a; rfl

/-- The body's stored block at an index of the block, from the four loaded blocks. -/
theorem block_apply (x0 : Vec Ideal S5000x256 .f32) (x1 : Vec Ideal S128x256 .f32) (x2 : Vec Ideal S128 .f32)
    (x3 : Vec Ideal S5000x1 .f32) (j : S5000x128.Idx) :
    k0_pay1 (F := Ideal) x0 x1 x2 x3 j
      = ((∑ k : Fin 256, x0 (ix2 (j 0) k) * x1 (ix2 (j 1) k)) + x2 (ix1 (j 1))) * x3 (ix2 (j 0) (0 : Fin 1)) :=
  (congrArg (k0_pay1 (F := Ideal) x0 x1 x2 x3) (eq_ix2 j)).trans (Block.pay_apply x0 x1 x2 x3 (j 0) (j 1))

/-- The printed index maps over the grid: the row blocks of `x`, of the scale column and of the output move together,
    everything else stays at block 0, and the output's row block number is below ten. -/
theorem index_facts : ∀ t : Fin cfg0.N, win0_0.index t (0 : Fin 2) = win0_4.index t (0 : Fin 2)
    ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = win0_4.index t (0 : Fin 2) ∧ win0_3.index t (1 : Fin 2) = 0
    ∧ win0_4.index t (1 : Fin 2) = 0 ∧ win0_4.index t (0 : Fin 2) ≤ 9 :=
  (by decide +kernel : ∀ t : Fin grid0.N, _)

/-- Every one of the ten row blocks is some point's. -/
theorem index_onto : ∀ q0 : Fin 10, ∃ t : Fin cfg0.N, win0_4.index t = ![q0.val, 0] :=
  (by decide +kernel : ∀ q0 : Fin 10, ∃ t : Fin grid0.N, win0_4.index t = ![q0.val, 0])

variable (m : (ℓ : Loc nD τ sig) → Buf (Elt Ideal) ℓ)

/-- What point `t` writes back is block `t` of `layer` of the arrays as the region finds them. -/
theorem flushed_eq (c : Dev nD) (t : Fin cfg0.N) :
    (dats m 0 c).flushed 4 t = ((cfg0.win 4).blk t).view.read (Elt Ideal)
      (layer (V m c main_arg0) (V m c main_arg1) (V m c main_arg2) (V m c main_v15)) := by
  show (cfg0.win 4).cut (grid0.coords t) ((dats m 0 c).after 4 t) = _
  rw [after0_4]
  unfold out0_4
  rw [View.canon_unit_zero off2]
  simp only [View.ld_unit_zero (S := S5000x256) off2, View.ld_unit_zero (S := S128x256) off2,
    View.ld_unit_zero (S := S128) off1, View.ld_unit_zero (S := S5000x1) off2]
  obtain ⟨e0, e1, e2, e3, e4, e5, e6, e7, -⟩ := index_facts t
  funext j
  show k0_pay1 (F := Ideal) (iblk m c 0 t) (iblk m c 1 t) (iblk m c 2 t) (iblk m c 3 t) j
    = layer (V m c main_arg0) (V m c main_arg1) (V m c main_arg2) (V m c main_v15) (((cfg0.win 4).blk t).view.emb j)
  refine (block_apply (iblk m c 0 t) (iblk m c 1 t) (iblk m c 2 t) (iblk m c 3 t) j).trans ?_
  have hj0 : (j 0).val < 5000 := (j 0).isLt
  have hj1 : (j 1).val < 128 := (j 1).isLt
  have hx : ∀ k : Fin 256, iblk m c 0 t (ix2 (j 0) k)
      = V m c main_arg0 (ix2 ((((cfg0.win 4).blk t).view.emb j) 0) k) := by
    intro k
    show V m c main_arg0 (((cfg0.win 0).blk t).view.emb (ix2 (j 0) k)) = _
    refine congrArg (V m c main_arg0) (funext fun a => Fin.ext ?_)
    match a with
    | ⟨0, _⟩ =>
      show win0_0.index t (0 : Fin 2) * 5000 + 1 * (j 0).val = win0_4.index t (0 : Fin 2) * 5000 + 1 * (j 0).val
      omega
    | ⟨1, _⟩ =>
      show win0_0.index t (1 : Fin 2) * 256 + 1 * k.val = k.val
      omega
  have hw : ∀ k : Fin 256, iblk m c 1 t (ix2 (j 1) k)
      = V m c main_arg1 (ix2 ((((cfg0.win 4).blk t).view.emb j) 1) k) := by
    intro k
    show V m c main_arg1 (((cfg0.win 1).blk t).view.emb (ix2 (j 1) k)) = _
    refine congrArg (V m c main_arg1) (funext fun a => Fin.ext ?_)
    match a with
    | ⟨0, _⟩ =>
      show win0_1.index t (0 : Fin 2) * 128 + 1 * (j 1).val = win0_4.index t (1 : Fin 2) * 128 + 1 * (j 1).val
      omega
    | ⟨1, _⟩ =>
      show win0_1.index t (1 : Fin 2) * 256 + 1 * k.val = k.val
      omega
  have hb : iblk m c 2 t (ix1 (j 1)) = V m c main_arg2 (ix1 ((((cfg0.win 4).blk t).view.emb j) 1)) := by
    show V m c main_arg2 (((cfg0.win 2).blk t).view.emb (ix1 (j 1))) = _
    refine congrArg (V m c main_arg2) (funext fun a => Fin.ext ?_)
    match a with
    | ⟨0, _⟩ =>
      show win0_2.index t (0 : Fin 1) * 128 + 1 * (j 1).val = win0_4.index t (1 : Fin 2) * 128 + 1 * (j 1).val
      omega
  have hs : iblk m c 3 t (ix2 (j 0) (0 : Fin 1))
      = V m c main_v15 (ix2 ((((cfg0.win 4).blk t).view.emb j) 0) (0 : Fin 1)) := by
    show V m c main_v15 (((cfg0.win 3).blk t).view.emb (ix2 (j 0) (0 : Fin 1))) = _
    refine congrArg (V m c main_v15) (funext fun a => Fin.ext ?_)
    match a with
    | ⟨0, _⟩ =>
      show win0_3.index t (0 : Fin 2) * 5000 + 1 * (j 0).val = win0_4.index t (0 : Fin 2) * 5000 + 1 * (j 0).val
      omega
    | ⟨1, _⟩ =>
      show win0_3.index t (1 : Fin 2) * 1 + 1 * 0 = 0
      omega
  unfold layer
  rw [hb, hs]
  exact congrArg (fun z => (z + V m c main_arg2 (ix1 ((((cfg0.win 4).blk t).view.emb j) 1)))
      * V m c main_v15 (ix2 ((((cfg0.win 4).blk t).view.emb j) 0) (0 : Fin 1)))
    (Finset.sum_congr rfl fun k _ => by rw [hx k, hw k])

/-- An index of the array is in point `t`'s block iff each coordinate is in the block's range on its axis. -/
theorem mem_blk (t : Fin cfg0.N) (i : S50000x128.Idx) :
    i ∈ ((cfg0.win 4).blk t).view.set ↔ ∀ a : Fin 2, win0_4.index t a * S5000x128.size a ≤ (i a).val
      ∧ (i a).val < win0_4.index t a * S5000x128.size a + S5000x128.size a := by
  show i ∈ ((View.whole main_v16).slice (win0_4.rect t)).set ↔ _
  rw [View.set_slice_whole, Rect.mem_set_unit]
  exact Iff.rfl

/-- Every index of the array lies in the block of some point: row `n` in that of point `n / 5000`. -/
theorem cover (i : S50000x128.Idx) :
    ∃ t : Fin cfg0.N, (cfg0.win 4).flush t = true ∧ i ∈ ((cfg0.win 4).blk t).view.set := by
  have hi0 : (i 0).val < 50000 := (i 0).isLt
  have hi1 : (i 1).val < 128 := (i 1).isLt
  obtain ⟨t, ht⟩ := index_onto ⟨(i 0).val / 5000, by omega⟩
  have q0 : win0_4.index t (0 : Fin 2) = (i 0).val / 5000 := congrFun ht 0
  have q1 : win0_4.index t (1 : Fin 2) = 0 := congrFun ht 1
  refine ⟨t, flush0_4 t, ?_⟩
  rw [mem_blk]
  intro a
  match a with
  | ⟨0, _⟩ =>
    show win0_4.index t (0 : Fin 2) * 5000 ≤ (i 0).val ∧ (i 0).val < win0_4.index t (0 : Fin 2) * 5000 + 5000
    omega
  | ⟨1, _⟩ =>
    show win0_4.index t (1 : Fin 2) * 128 ≤ (i 1).val ∧ (i 1).val < win0_4.index t (1 : Fin 2) * 128 + 128
    omega

/-- The output array after the run is `layer` of the arrays the region finds. -/
theorem final (c : Dev nD) : (dats m 0 c).arrAt 4 cfg0.N
    = layer (V m c main_arg0) (V m c main_arg1) (V m c main_arg2) (V m c main_v15) :=
  (dats m 0 c).arrAt_eq_of_cover 4 _ (fun t _ => flushed_eq m c t) cover

end Cert.KernelIdeal.Array

end
-- ==== Proof.LibRowGather.lean ====
/-
  A row gather read at an index. What `x[idx]` of a table `x : [N, C]` at an integer vector `idx : [R]` lowers to is a
  gather with offset axis 1, collapsed slice axis 0, start index map [0], slice sizes [1, C] and index vector axis 1
  over the indices as `[R, 1]`: row `r` of the result is the table's row whose number is `idx[r, 0]` read as a signed
  integer and clamped into `[0, N - 1]`; column `c` of the result is column `c` of that row. The extents N, C, R are
  arbitrary (N positive).
-/
import Idealize.ShloMosaic.Lib.ValueIdx

namespace RowGather

open Idealize.ShloMosaic Idealize.ShloMosaic.ValueIdx

variable {α : Type}

/-- The dimension numbers of a row gather for a table `[N, C]`, start indices `[R, 1]` and result `[R, C]`. -/
abbrev rowDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The gathered array at (r, c) is the table at (clamp (idx (r, 0)), c). -/
theorem gather_row_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowDims N C R wf) x idx (ix2 r c)
      = x (ix2 ⟨min (idx (ix2 r (0 : Fin 1))).toInt.toNat (N - 1), by omega⟩ c) := by
  unfold Host.gather
  congr 1
  funext a
  refine Fin.ext ?_
  match a with
  | ⟨0, _⟩ =>
    show (rowDims N C R wf).start (ix2 r c) idx (0 : Fin 2) + (rowDims N C R wf).batchCoord (ix2 r c) (0 : Fin 2)
        + (rowDims N C R wf).offCoord (ix2 r c) (0 : Fin 2) = min (idx (ix2 r (0 : Fin 1))).toInt.toNat (N - 1)
    rw [GatherDims.batchCoord_eq_zero _ _ _ List.not_mem_nil, GatherDims.offCoord_eq_zero _ _ _
      (fun h => ((GatherDims.mem_sKept _ _).mp h).1 (List.mem_singleton.mpr rfl))]
    simp only [Nat.add_zero]
    unfold GatherDims.start
    rw [dif_pos (show (0 : Fin 2) ∈ (rowDims N C R wf).startIndexMap from List.mem_singleton.mpr rfl)]
    have hsi : (rowDims N C R wf).siIdx (ix2 r c) ⟨List.idxOf (0 : Fin 2) (rowDims N C R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    have hs : (rowDims N C R wf).start (ix2 r c) idx (1 : Fin 2) = 0 := by
      unfold GatherDims.start
      exact dif_neg (by decide : (1 : Fin 2) ∉ ([0] : List (Fin 2)))
    have ho : (rowDims N C R wf).offCoord (ix2 r c) (1 : Fin 2) = c.val := by
      unfold GatherDims.offCoord
      rw [dif_pos ((GatherDims.mem_sKept _ _).mpr
        ⟨(by decide : (1 : Fin 2) ∉ ([0] : List (Fin 2))), List.not_mem_nil⟩)]
      rfl
    show (rowDims N C R wf).start (ix2 r c) idx (1 : Fin 2) + (rowDims N C R wf).batchCoord (ix2 r c) (1 : Fin 2)
        + (rowDims N C R wf).offCoord (ix2 r c) (1 : Fin 2) = c.val
    rw [GatherDims.batchCoord_eq_zero _ _ _ List.not_mem_nil, hs, ho]
    omega

end RowGather
-- ==== Proof.LibRowScatter.lean ====
/-
  Indexed reads and accumulating writes of rows, read at an index.

  * A vector gather `x[idx]` of a table `x : [N]` at start indices `[R, 1]` (collapsed axis 0, start index map [0],
    slice sizes [1], index vector axis 1): entry `r` of the result is the table's entry whose number is `idx[r, 0]`
    read as a signed integer and clamped into `[0, N - 1]`.
  * An accumulating scatter of rows: updates `[R, C]` (or `[R]`) added into an operand `[N, C]` (or `[N]`) at the rows
    the scatter indices `[R, 1]` name (inserted window axis 0, scatter-dims-to-operand-dims [0], index vector axis 1;
    update window axis 1 for rows). Update `(e, q)` lands on operand element `(z, q)` where `z = idx[e, 0]` read as a
    signed integer, NOT clamped; an update whose `z` is outside `[0, N)` lands nowhere.
  The extents are arbitrary.
-/
import Idealize.ShloMosaic.Lib.ValueIdx

namespace RowScatter

open Idealize.ShloMosaic Idealize.ShloMosaic.ValueIdx

variable {α : Type}

/-! ## The vector gather -/

/-- The dimension numbers of a vector gather for a table `[N]`, start indices `[R, 1]` and result `[R]`. -/
abbrev vecGather (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The gathered vector at `r` is the table at `clamp (idx (r, 0))`. -/
theorem gather_vec_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (vecGather N R wf) x idx (ix1 r)
      = x (ix1 ⟨min (idx (ix2 r (0 : Fin 1))).toInt.toNat (N - 1), by omega⟩) := by
  unfold Host.gather
  congr 1
  funext a
  refine Fin.ext ?_
  match a with
  | ⟨0, _⟩ =>
    show (vecGather N R wf).start (ix1 r) idx (0 : Fin 1) + (vecGather N R wf).batchCoord (ix1 r) (0 : Fin 1)
        + (vecGather N R wf).offCoord (ix1 r) (0 : Fin 1) = min (idx (ix2 r (0 : Fin 1))).toInt.toNat (N - 1)
    rw [GatherDims.batchCoord_eq_zero _ _ _ List.not_mem_nil, GatherDims.offCoord_eq_zero _ _ _
      (fun h => ((GatherDims.mem_sKept _ _).mp h).1 (List.mem_singleton.mpr rfl))]
    simp only [Nat.add_zero]
    unfold GatherDims.start
    rw [dif_pos (show (0 : Fin 1) ∈ (vecGather N R wf).startIndexMap from List.mem_singleton.mpr rfl)]
    have hsi : (vecGather N R wf).siIdx (ix1 r) ⟨List.idxOf (0 : Fin 1) (vecGather N R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl

/-! ## The accumulating scatter of rows -/

/-- The dimension numbers of a row scatter: operand `[N, C]`, scatter indices `[R, 1]`, updates `[R, C]`. -/
abbrev rowScatter (N C R : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The row an update lands on, before the range check: the scatter index read signed. -/
theorem rowScatter_start_zero {N C R w : Nat}
    (wf : ScatterDims.WF ⟨2, ![N, C]⟩ ⟨2, ![R, 1]⟩ ⟨2, ![R, C]⟩ [1] [0] [0] 1)
    (idx : IVec ⟨2, ![R, 1]⟩ w) (j : (⟨2, ![R, C]⟩ : Shape).Idx) :
    (rowScatter N C R wf).start j idx (0 : Fin 2) = (idx (ix2 (j 0) (0 : Fin 1))).toInt := by
  unfold ScatterDims.start
  rw [dif_pos (show (0 : Fin 2) ∈ (rowScatter N C R wf).scatterDimsToOperandDims from List.mem_singleton.mpr rfl)]
  have hsi : (rowScatter N C R wf).siIdx j ⟨List.idxOf (0 : Fin 2) (rowScatter N C R wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

theorem rowScatter_window_zero {N C R : Nat}
    (wf : ScatterDims.WF ⟨2, ![N, C]⟩ ⟨2, ![R, 1]⟩ ⟨2, ![R, C]⟩ [1] [0] [0] 1)
    (j : (⟨2, ![R, C]⟩ : Shape).Idx) : (rowScatter N C R wf).window j (0 : Fin 2) = 0 := by
  unfold ScatterDims.window
  exact dif_neg (by simp [ScatterDims.sKept, Shape.kept, List.mem_filter])

/-- An update that lands on operand element `i` has its scatter index, read signed, equal to `i`'s row. -/
theorem rowScatter_lands {N C R w : Nat}
    (wf : ScatterDims.WF ⟨2, ![N, C]⟩ ⟨2, ![R, 1]⟩ ⟨2, ![R, C]⟩ [1] [0] [0] 1)
    (idx : IVec ⟨2, ![R, 1]⟩ w) (j : (⟨2, ![R, C]⟩ : Shape).Idx) (i : (⟨2, ![N, C]⟩ : Shape).Idx)
    (h : (rowScatter N C R wf).resultIdx? j idx = some i) :
    (idx (ix2 (j 0) (0 : Fin 1))).toInt = ((i 0).val : Int) := by
  unfold ScatterDims.resultIdx? at h
  split at h
  · rename_i hr
    have h0 := hr (0 : Fin 2)
    have hi := congrArg (fun f => (f (0 : Fin 2)).val) (Option.some.inj h)
    simp only at hi
    rw [rowScatter_start_zero, rowScatter_window_zero] at h0 hi
    omega
  · exact absurd h (by simp)

/-! ## The accumulating scatter into a vector -/

/-- The dimension numbers of a vector scatter: operand `[N]`, scatter indices `[R, 1]`, updates `[R]`. -/
abbrev vecScatter (N R : Nat)
    (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

theorem vecScatter_start_zero {N R w : Nat}
    (wf : ScatterDims.WF ⟨1, ![N]⟩ ⟨2, ![R, 1]⟩ ⟨1, ![R]⟩ [] [0] [0] 1)
    (idx : IVec ⟨2, ![R, 1]⟩ w) (e : (⟨1, ![R]⟩ : Shape).Idx) :
    (vecScatter N R wf).start e idx (0 : Fin 1) = (idx (ix2 (e 0) (0 : Fin 1))).toInt := by
  unfold ScatterDims.start
  rw [dif_pos (show (0 : Fin 1) ∈ (vecScatter N R wf).scatterDimsToOperandDims from List.mem_singleton.mpr rfl)]
  have hsi : (vecScatter N R wf).siIdx e ⟨List.idxOf (0 : Fin 1) (vecScatter N R wf).scatterDimsToOperandDims,
      List.idxOf_lt_length_iff.2 (List.mem_singleton.mpr rfl)⟩ = ix2 (e 0) (0 : Fin 1) := by
    funext b; refine Fin.ext ?_
    match b with
    | ⟨0, _⟩ => rfl
    | ⟨1, _⟩ => rfl
  rw [hsi]
  rfl

theorem vecScatter_window_zero {N R : Nat}
    (wf : ScatterDims.WF ⟨1, ![N]⟩ ⟨2, ![R, 1]⟩ ⟨1, ![R]⟩ [] [0] [0] 1)
    (e : (⟨1, ![R]⟩ : Shape).Idx) : (vecScatter N R wf).window e (0 : Fin 1) = 0 := by
  unfold ScatterDims.window
  exact dif_neg (by simp [ScatterDims.sKept, Shape.kept, List.mem_filter])

/-- An update whose scatter index, read signed, is the number of an operand entry lands on that entry. -/
theorem vecScatter_lands_of {N R w : Nat}
    (wf : ScatterDims.WF ⟨1, ![N]⟩ ⟨2, ![R, 1]⟩ ⟨1, ![R]⟩ [] [0] [0] 1)
    (idx : IVec ⟨2, ![R, 1]⟩ w) (e : (⟨1, ![R]⟩ : Shape).Idx) (n : Fin N)
    (h : (idx (ix2 (e 0) (0 : Fin 1))).toInt = (n.val : Int)) :
    (vecScatter N R wf).resultIdx? e idx = some (ix1 n) := by
  have hr : ∀ a : Fin 1, 0 ≤ (vecScatter N R wf).start e idx a + (vecScatter N R wf).window e a
      ∧ (vecScatter N R wf).start e idx a + (vecScatter N R wf).window e a < ((⟨1, ![N]⟩ : Shape).size a : Int) := by
    intro a
    match a with
    | ⟨0, _⟩ =>
      show 0 ≤ (vecScatter N R wf).start e idx (0 : Fin 1) + (vecScatter N R wf).window e (0 : Fin 1)
        ∧ (vecScatter N R wf).start e idx (0 : Fin 1) + (vecScatter N R wf).window e (0 : Fin 1) < (N : Int)
      rw [vecScatter_start_zero, vecScatter_window_zero, h]
      have := n.isLt
      omega
  unfold ScatterDims.resultIdx?
  rw [dif_pos hr]
  refine congrArg some (funext fun a => Fin.ext ?_)
  match a with
  | ⟨0, _⟩ =>
    show ((vecScatter N R wf).start e idx (0 : Fin 1) + (vecScatter N R wf).window e (0 : Fin 1)).toNat = n.val
    rw [vecScatter_start_zero, vecScatter_window_zero, h]
    omega

end RowScatter
-- ==== Proof.LibGatherScale.lean ====
/-
  A row gather of a table whose rows carry a per-row factor.

  Let `h : [N, C]` be a table and `s : [N]` hold one factor per row. Gathering rows of the scaled table
  `(n, c) ↦ h (n, c) · s n` at start indices `idx : [R, 1]` gives, at `(r, c)`, the value `h (n, c) · s n`, where `n` is
  `idx (r, 0)` read as a signed integer and clamped into `[0, N − 1]`. Gathering the rows of `h` and, separately, the
  entries of `s` at the same indices, and multiplying row `r` by the gathered factor `r` (made a column `[R, 1]` and
  spread over the `C` columns), gives the same value: both gathers compute the same row number `n`. No property of
  the multiplication is used. The extents `N > 0`, `C`, `R` and the index width are arbitrary.

  Also here: a vector as a column (`[a] → [a, 1]`) and a column spread over columns (`[a, 1] → [a, b]`), the two
  broadcasts by which a per-row factor meets a matrix, read at an index.
-/
import Idealize.ShloMosaic.Lib.ValueIdx
import Idealize.ShloMosaic.Lib.Pipeline.Value
import proofs.«125393_j72086731096478_2_alg».proof.Proof.LibRowGather
import proofs.«125393_j72086731096478_2_alg».proof.Proof.LibRowScatter

namespace GatherScale

open Idealize.ShloMosaic Idealize.ShloMosaic.ValueIdx

variable {α : Type}

/-- A vector as a column: entry `(p, z)` of the column is entry `p` of the vector. -/
theorem col_apply {a : Nat} (h : (⟨1, ![a]⟩ : Shape).BroadcastsInDim ⟨2, ![a, 1]⟩ (![0] : Fin 1 → Fin 2))
    (v : (⟨1, ![a]⟩ : Shape).Idx → α) (p : Fin a) (z : Fin 1) :
    broadcastInDim ⟨2, ![a, 1]⟩ ![0] h v (ix2 p z) = v (ix1 p) :=
  broadcastInDim_apply _ h v (ix2 p z) (ix1 p) (fun ax => match ax with
    | ⟨0, _⟩ => by
      show p.val = if a = 1 then 0 else p.val
      split
      · have := p.isLt; omega
      · rfl)

/-- A column spread over `b` columns: entry `(p, q)` is the column's entry `(p, 0)`. -/
theorem spread_apply {a b : Nat} (h : (⟨2, ![a, 1]⟩ : Shape).BroadcastsInDim ⟨2, ![a, b]⟩ (![0, 1] : Fin 2 → Fin 2))
    (v : (⟨2, ![a, 1]⟩ : Shape).Idx → α) (p : Fin a) (q : Fin b) :
    broadcastInDim ⟨2, ![a, b]⟩ ![0, 1] h v (ix2 p q) = v (ix2 p (0 : Fin 1)) :=
  broadcastInDim_apply _ h v (ix2 p q) (ix2 p (0 : Fin 1)) (fun ax => match ax with
    | ⟨0, _⟩ => by
      show p.val = if a = 1 then 0 else p.val
      split
      · have := p.isLt; omega
      · rfl
    | ⟨1, _⟩ => by
      show (0 : Nat) = if (1 : Nat) = 1 then 0 else q.val
      rfl)

/-- A vector made a column and spread over `b` columns: entry `(p, q)` is entry `p` of the vector. -/
theorem col_spread_apply {a b : Nat} (hc : (⟨1, ![a]⟩ : Shape).BroadcastsInDim ⟨2, ![a, 1]⟩ (![0] : Fin 1 → Fin 2))
    (hs : (⟨2, ![a, 1]⟩ : Shape).BroadcastsInDim ⟨2, ![a, b]⟩ (![0, 1] : Fin 2 → Fin 2))
    (v : (⟨1, ![a]⟩ : Shape).Idx → α) (p : Fin a) (q : Fin b) :
    broadcastInDim ⟨2, ![a, b]⟩ ![0, 1] hs (broadcastInDim ⟨2, ![a, 1]⟩ ![0] hc v) (ix2 p q) = v (ix1 p) :=
  (spread_apply hs _ p q).trans (col_apply hc v p 0)

/-- Rows of a row-scaled table gathered at `idx` are the gathered rows times the gathered factors. -/
theorem gather_scaled_rows [Mul α] {N C R w : Nat} (hN : 0 < N)
    (wfr : GatherDims.WF ⟨2, ![N, C]⟩ ⟨2, ![R, 1]⟩ ⟨2, ![R, C]⟩ [1] [0] [] [0] [] 1 ![1, C])
    (wfv : GatherDims.WF ⟨1, ![N]⟩ ⟨2, ![R, 1]⟩ ⟨1, ![R]⟩ [] [0] [] [0] [] 1 ![1])
    (hc : (⟨1, ![R]⟩ : Shape).BroadcastsInDim ⟨2, ![R, 1]⟩ (![0] : Fin 1 → Fin 2))
    (hs : (⟨2, ![R, 1]⟩ : Shape).BroadcastsInDim ⟨2, ![R, C]⟩ (![0, 1] : Fin 2 → Fin 2))
    (h : (⟨2, ![N, C]⟩ : Shape).Idx → α) (s : (⟨1, ![N]⟩ : Shape).Idx → α) (idx : IVec ⟨2, ![R, 1]⟩ w)
    (r : Fin R) (c : Fin C) :
    Host.gather (RowGather.rowDims N C R wfr) (fun i => h i * s (ix1 (i 0))) idx (ix2 r c)
      = Host.gather (RowGather.rowDims N C R wfr) h idx (ix2 r c)
        * broadcastInDim ⟨2, ![R, C]⟩ ![0, 1] hs
            (broadcastInDim ⟨2, ![R, 1]⟩ ![0] hc (Host.gather (RowScatter.vecGather N R wfv) s idx)) (ix2 r c) := by
  rw [RowGather.gather_row_apply hN wfr _ idx r c, RowGather.gather_row_apply hN wfr h idx r c,
    col_spread_apply hc hs _ r c, RowScatter.gather_vec_apply hN wfv s idx r]
  rfl

end GatherScale
-- ==== Proof.EdgeSpec.lean ====
/-
  The edge side of the graph convolution, as functions of the edge list.

  The edge list `ei : [2, 625000]` holds, per edge `e`, a destination node `ei (0, e)` and a source node `ei (1, e)`
  (32-bit words, read signed). From it both programs form, by the same operations:
    • `dst`, `src`: the two rows as vectors of 625000 words;
    • `srcN`: the source with a negative number moved up by the node count 50000 (the indexing convention for a
      negative position);
    • `deg`: for each of the 50000 nodes the sum of a one per edge whose destination is that node (an accumulating
      scatter of ones into zeros);
    • `scale`: `1 / sqrt (max deg 1)` where `deg > 0`, and `0` elsewhere;
    • `rows h`: for a table `h : [50000, 128]`, the 625000 rows of `h` at the positions `srcN`;
    • `factors`: for each edge its source node's `scale`, spread over the 128 features;
    • `tail u`: for per-edge rows `u : [625000, 128]`, their sum per destination node (an accumulating scatter into
      zeros), each node's row then multiplied by that node's `scale`.
  Every shape relation these operations need is a field of `Rel`; all of them are decidable facts about the literal
  shapes, and `rel` proves them once for both programs.

  The one law about these functions: the rows of a table whose row `n` was multiplied by `scale n` are the rows of the
  table times the edges' `factors` (`rows_scaled`) — a gather commutes with a per-row factor.
-/
import Idealize.ShloMosaic.PureOps
import Idealize.ShloMosaic.PureOps.Ideal
import Idealize.ShloMosaic.Lib.ValueIdx
import proofs.«125393_j72086731096478_2_alg».proof.Proof.LibRowGather
import proofs.«125393_j72086731096478_2_alg».proof.Proof.LibRowScatter
import proofs.«125393_j72086731096478_2_alg».proof.Proof.LibGatherScale

noncomputable section

namespace Cert.Edges

open Idealize.ShloMosaic

abbrev S0 : Shape := ⟨0, ![]⟩
abbrev SPair : Shape := ⟨2, ![2, 625000]⟩
abbrev SRow : Shape := ⟨2, ![1, 625000]⟩
abbrev SE : Shape := ⟨1, ![625000]⟩
abbrev SEcol : Shape := ⟨2, ![625000, 1]⟩
abbrev SEC : Shape := ⟨2, ![625000, 128]⟩
abbrev SN : Shape := ⟨1, ![50000]⟩
abbrev SNcol : Shape := ⟨2, ![50000, 1]⟩
abbrev SNC : Shape := ⟨2, ![50000, 128]⟩

/-- The shape relations the edge-side operations cite. -/
structure Rel : Prop where
  slice0 : SPair.Slices ![0, 0] SRow
  slice1 : SPair.Slices ![1, 0] SRow
  flat : SRow.ShapeCasts SE
  fillE : S0.BroadcastsInDim SE (![] : Fin 0 → Fin SE.rank)
  fillN : S0.BroadcastsInDim SN (![] : Fin 0 → Fin SN.rank)
  fillNC : S0.BroadcastsInDim SNC (![] : Fin 0 → Fin SNC.rank)
  colE : SE.BroadcastsInDim SEcol (![0] : Fin 1 → Fin SEcol.rank)
  colN : SN.BroadcastsInDim SNcol (![0] : Fin 1 → Fin SNcol.rank)
  spreadN : SNcol.BroadcastsInDim SNC (![0, 1] : Fin 2 → Fin SNC.rank)
  spreadE : SEcol.BroadcastsInDim SEC (![0, 1] : Fin 2 → Fin SEC.rank)
  scatV : ScatterDims.WF SN SEcol SE [] [0] [0] 1
  scatR : ScatterDims.WF SNC SEcol SEC [1] [0] [0] 1
  gathR : GatherDims.WF SNC SEcol SEC [1] [0] [] [0] [] 1 ![1, 128]
  gathV : GatherDims.WF SN SEcol SE [] [0] [] [0] [] 1 ![1]

/-- The relations hold: each is decided on the literal shapes. -/
theorem rel : Rel where
  slice0 := by decide
  slice1 := by decide
  flat := by decide
  fillE := by decide
  fillN := by decide
  fillNC := by decide
  colE := by decide
  colN := by decide
  spreadN := by decide
  spreadE := by decide
  scatV := by decide
  scatR := by decide
  gathR := by decide
  gathV := by decide

variable (R : Rel)

/-- The destination node of each edge. -/
def dst (ei : IVec SPair 32) : IVec SE 32 :=
  shapeCast SE (extractStridedSlice SRow ![0, 0] ei R.slice0) R.flat

/-- The source node of each edge. -/
def src (ei : IVec SPair 32) : IVec SE 32 :=
  shapeCast SE (extractStridedSlice SRow ![1, 0] ei R.slice1) R.flat

/-- The source node with a negative number moved up by the node count. -/
def srcN (ei : IVec SPair 32) : IVec SE 32 :=
  select (cmpi .slt (src R ei) (broadcastInDim SE ![] R.fillE (constantI S0 32 0#32)))
    (addi (src R ei) (broadcastInDim SE ![] R.fillE (constantI S0 32 50000#32))) (src R ei)

/-- Each node's number of incoming edges, as a sum of ones. -/
def deg (ei : IVec SPair 32) : FVec Ideal SN .f32 :=
  Host.scatterAdd (F := Ideal) (RowScatter.vecScatter 50000 625000 R.scatV)
    (broadcastInDim SN ![] R.fillN (constant (F := Ideal) S0 .f32 0x00000000#32))
    (broadcastInDim SEcol ![0] R.colE (dst R ei))
    (broadcastInDim SE ![] R.fillE (constant (F := Ideal) S0 .f32 0x3F800000#32))

/-- Each node's factor: the inverse square root of its degree where that is positive, zero elsewhere. -/
def scale (ei : IVec SPair 32) : FVec Ideal SN .f32 :=
  select (cmpf (F := Ideal) .ogt (deg R ei) (broadcastInDim SN ![] R.fillN (constant (F := Ideal) S0 .f32 0x00000000#32)))
    (Host.rsqrt (F := Ideal) (maximumf (F := Ideal) (deg R ei)
      (broadcastInDim SN ![] R.fillN (constant (F := Ideal) S0 .f32 0x3F800000#32))))
    (broadcastInDim SN ![] R.fillN (constant (F := Ideal) S0 .f32 0x00000000#32))

/-- The start indices of the gathers: the normalised source nodes as a column. -/
def srcCol (ei : IVec SPair 32) : IVec SEcol 32 := broadcastInDim SEcol ![0] R.colE (srcN R ei)

/-- The rows of a node table at the edges' source nodes. -/
def rows (ei : IVec SPair 32) (h : FVec Ideal SNC .f32) : FVec Ideal SEC .f32 :=
  Host.gather (RowGather.rowDims 50000 128 625000 R.gathR) h (srcCol R ei)

/-- Each edge's source-node factor, spread over the features. -/
def factors (ei : IVec SPair 32) : FVec Ideal SEC .f32 :=
  broadcastInDim SEC ![0, 1] R.spreadE (broadcastInDim SEcol ![0] R.colE
    (Host.gather (RowScatter.vecGather 50000 625000 R.gathV) (scale R ei) (srcCol R ei)))

/-- Per-edge rows summed per destination node, each node's row then multiplied by the node's factor. -/
def tail (ei : IVec SPair 32) (u : FVec Ideal SEC .f32) : FVec Ideal SNC .f32 :=
  mulf (F := Ideal)
    (Host.scatterAdd (F := Ideal) (RowScatter.rowScatter 50000 128 625000 R.scatR)
      (broadcastInDim SNC ![] R.fillNC (constant (F := Ideal) S0 .f32 0x00000000#32))
      (broadcastInDim SEcol ![0] R.colE (dst R ei)) u)
    (broadcastInDim SNC ![0, 1] R.spreadN (broadcastInDim SNcol ![0] R.colN (scale R ei)))

/-- The rows of a table whose row `n` carries the factor `scale n` are the table's rows times the edges' factors:
    both gathers read the same source node. -/
theorem rows_scaled (ei : IVec SPair 32) (h : FVec Ideal SNC .f32) :
    rows R ei (fun i => h i * scale R ei (ValueIdx.ix1 (i 0))) = mulf (F := Ideal) (rows R ei h) (factors R ei) := by
  funext i
  obtain ⟨e, q, rfl⟩ : ∃ (e : Fin 625000) (q : Fin 128), i = ValueIdx.ix2 e q := ⟨i 0, i 1, ValueIdx.eq_ix2 i⟩
  rw [ValueIdx.mulf_apply]
  unfold rows factors
  exact GatherScale.gather_scaled_rows (by omega) R.gathR R.gathV R.colE R.spreadE h (scale R ei) (srcCol R ei) e q

end Cert.Edges

end
-- ==== Proof.LibHostRead.lean ====
/-
  Reading a buffer after a stretch of host operations, some of them from outlined functions.

  The contents of a device's buffers after a list of host operations are a fold over the list (`StableHlo.after`): each
  operation replaces its result buffer by its function of its operands' contents and leaves every other buffer. Read at one
  buffer, the fold is that buffer's composed term of the contents before the list.

  An outlined function's operations (a `where`, a `relu`) name their buffers through typed references, and what such an
  operation reads or writes is moved between the value's type and the buffer's own type by a transport along an equation
  between the two types. For a typed reference to a literal buffer that equation holds by computation, so the transport is
  the identity: `toBuf_of` and `ofBuf_of`, by reflexivity, for any signature and any type of values. Rewriting with them
  removes every transport from a composed term. That matters for what comes next: an equation between two composed terms
  with the same operations at the same places is decided argument by argument, but a transport at the head of one side
  hides that, and the comparison then opens `select`, the float comparison or `maximumf` down to their elementwise
  definitions and from there the host's scatter and gather over their whole index ranges.

  `read_results` does the reading: one simp pass over the fold; then, for results the pass leaves standing inside a list
  of operands (the pieces of a `concatenate`), the same two rules by rewriting in place until none applies; then the
  transports. What is left is an equation between terms of the PureOps operations over the contents before the list.
-/
import Idealize.ShloMosaic.Lib.StableHlo.Run

namespace Cert.HostRead

open Idealize.ShloMosaic Idealize.ShloMosaic.StableHlo

variable {sig : RefSig} {Val : EltTy → Type}

/-- Contents moved to a literal buffer's own type are themselves. -/
theorem toBuf_of (r : Ref sig .tc) (h1 : r.ty = r.ty) (h2 : r.space ≠ .host) (h3 : r.isScoped = false)
    (v : r.ty.Contents Val) : (TRef.of r h1 h2 h3 : TRef sig r.ty).toBuf v = v := rfl

/-- Contents moved back from a literal buffer's own type are themselves. -/
theorem ofBuf_of (r : Ref sig .tc) (h1 : r.ty = r.ty) (h2 : r.space ≠ .host) (h3 : r.isScoped = false)
    (v : r.ty.Contents Val) : (TRef.of r h1 h2 h3 : TRef sig r.ty).ofBuf v = v := rfl

/-- Reads a goal `after ops V (Proc.devRef .tc r) = …`, `ops` a literal list of operations over literal buffers, as the
    operations' composed term of `V` at the buffers the list does not write. -/
macro "read_results" : tactic =>
  `(tactic| (after_results_simp
             repeat (first
               | rw [nullary_result] | rw [unary_result] | rw [binary_result] | rw [ternary_result] | rw [reshape_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide))
             repeat (first | rw [toBuf_of] | rw [ofBuf_of])))

end Cert.HostRead
-- ==== Proof.LibKeep.lean ====
/-
  A buffer that a stretch of host operations does not write keeps its contents through the stretch.

  The contents of a device's buffers after a list of host operations are a fold over the list: each operation replaces the
  buffers it writes and leaves every other buffer. So the fold read at a buffer that no operation of the list writes is
  the contents before the list at that buffer. For a literal list over literal buffers this is decided operation by
  operation: each operation's written buffer is a different reference from the one read.
-/
import Idealize.ShloMosaic.Lib.StableHlo.Run

namespace Cert.Keep

open Idealize.ShloMosaic Idealize.ShloMosaic.StableHlo

/-- `keeps ops` closes a goal `after ops V b = V b` (or one that unfolds to it by abbreviations) when no operation of the
    literal list `ops` — nullary to quaternary operations, reshapes, indexed binary operations, an outlined function's
    typed-reference operations — writes the literal buffer `b`: every operation's written buffer is compared with `b`. -/
macro "keeps " ops:ident : tactic =>
  `(tactic| (refine StableHlo.after_of_forall_not_mem _ _ (List.forall_iff_forall_mem.mp ?_)
             simp only [$ops:ident, List.Forall, StableHlo.nullary_writes, StableHlo.unary_writes, StableHlo.binary_writes,
               StableHlo.ternary_writes, StableHlo.quaternary_writes, StableHlo.reshape_writes, StableHlo.binaryIndexed_writes,
               Finset.mem_singleton]
             repeat' apply And.intro
             all_goals exact StableHlo.devRef_ne_of_ne (by decide)))

end Cert.Keep
-- ==== Proof.KernelRun.lean ====
/-
  The kernel program's run.

  Before the region the host computes, from the edge list, the destination and source node of every edge and the
  nodes' factors `scale`, and hands the factors to the region as a 50000 × 1 column. The region leaves the scaled
  dense layer `layer x W b column` in its output array. After the region the host gathers that array's rows at the
  edges' source nodes, sums them per destination node and multiplies each node's row by the node's factor: the
  specification's `tail` of its `rows`. Every weakly fair execution terminates with the result buffer at that value
  and the four arguments unchanged.
-/
import proofs.«125393_j72086731096478_2_alg».proof.Proof.Gen.KernelIdeal.Frame
import proofs.«125393_j72086731096478_2_alg».proof.Proof.KernelArray
import proofs.«125393_j72086731096478_2_alg».proof.Proof.EdgeSpec
import proofs.«125393_j72086731096478_2_alg».proof.Proof.LibHostRead
import proofs.«125393_j72086731096478_2_alg».proof.Proof.LibKeep
import Idealize.ShloMosaic.Lib.StableHlo.Run

set_option maxRecDepth 16384

noncomputable section

namespace Cert.KernelIdeal.HostRun

open Cert.HostRead Cert.Keep Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ)

/-! ## What the host operations before the region leave -/

/-- The destination nodes. -/
theorem V_dst (c : Dev nD) : V0 m c (Proc.devRef .tc main_v1) = Cert.Edges.dst Cert.Edges.rel (m ((c.tc : Thread nD τ).loc main_arg3)) := by
  dsimp only [V0]
  simp only [hostOps0, hostOps0_1, hostOps0_2, List.flatten_cons, List.flatten_nil, List.append_nil, List.cons_append,
    List.nil_append]
  read_results
  unfold Cert.Edges.dst
  rfl

/-- The source nodes. -/
theorem V_src (c : Dev nD) : V0 m c (Proc.devRef .tc main_v3) = Cert.Edges.src Cert.Edges.rel (m ((c.tc : Thread nD τ).loc main_arg3)) := by
  dsimp only [V0]
  simp only [hostOps0, hostOps0_1, hostOps0_2, List.flatten_cons, List.flatten_nil, List.append_nil, List.cons_append,
    List.nil_append]
  read_results
  unfold Cert.Edges.src
  rfl

/-- The nodes' factors. -/
theorem V_scale (c : Dev nD) : V0 m c (Proc.devRef .tc main_v14) = Cert.Edges.scale Cert.Edges.rel (m ((c.tc : Thread nD τ).loc main_arg3)) := by
  dsimp only [V0]
  simp only [hostOps0, hostOps0_1, hostOps0_2, List.flatten_cons, List.flatten_nil, List.append_nil, List.cons_append,
    List.nil_append]
  read_results
  unfold Cert.Edges.scale Cert.Edges.deg Cert.Edges.dst
  rfl

/-- The factors as the column the region is handed. -/
theorem V_column (c : Dev nD) : (V m c main_v15 : S50000x1.Idx → EReal)
    = shapeCast S50000x1 (Cert.Edges.scale Cert.Edges.rel (m ((c.tc : Thread nD τ).loc main_arg3))) shapeCasts_S50000_S50000x1 := by
  dsimp only [V, V0]
  simp only [hostOps0, hostOps0_1, hostOps0_2, List.flatten_cons, List.flatten_nil, List.append_nil, List.cons_append,
    List.nil_append]
  read_results
  unfold Cert.Edges.scale Cert.Edges.deg Cert.Edges.dst
  rfl

/-- The region's output array: the scaled dense layer of the arguments and the factors. -/
theorem output_eq (c : Dev nD) : (dats m 0 c).arrAt 4 cfg0.N
    = Array.layer (m ((c.tc : Thread nD τ).loc main_arg0)) (m ((c.tc : Thread nD τ).loc main_arg1))
        (m ((c.tc : Thread nD τ).loc main_arg2))
        (shapeCast S50000x1 (Cert.Edges.scale Cert.Edges.rel (m ((c.tc : Thread nD τ).loc main_arg3))) shapeCasts_S50000_S50000x1) := by
  rw [Array.final m c, V_main_arg0, V_main_arg1, V_main_arg2, V_column]

/-! ## What the host operations after the region read -/

/-- A buffer that is no array of the pipeline is, after the region, as the region found it. -/
theorem after_dst (c : Dev nD) :
    Pipeline.withArrays (cfgs 0).spec c (V0 m c) (fun w => (dats m 0 c).arrAt w (cfgs 0).N) (Proc.devRef .tc main_v1)
      = Cert.Edges.dst Cert.Edges.rel (m ((c.tc : Thread nD τ).loc main_arg3)) :=
  (Pipeline.withArrays_of_ne _ c (V0 m c) _ main_v1 (by exact (by decide : ∀ w, Pipeline.arrRef spec0 w ≠ main_v1))).trans
    (V_dst m c)

theorem after_src (c : Dev nD) :
    Pipeline.withArrays (cfgs 0).spec c (V0 m c) (fun w => (dats m 0 c).arrAt w (cfgs 0).N) (Proc.devRef .tc main_v3)
      = Cert.Edges.src Cert.Edges.rel (m ((c.tc : Thread nD τ).loc main_arg3)) :=
  (Pipeline.withArrays_of_ne _ c (V0 m c) _ main_v3 (by exact (by decide : ∀ w, Pipeline.arrRef spec0 w ≠ main_v3))).trans
    (V_src m c)

theorem after_scale (c : Dev nD) :
    Pipeline.withArrays (cfgs 0).spec c (V0 m c) (fun w => (dats m 0 c).arrAt w (cfgs 0).N) (Proc.devRef .tc main_v14)
      = Cert.Edges.scale Cert.Edges.rel (m ((c.tc : Thread nD τ).loc main_arg3)) :=
  (Pipeline.withArrays_of_ne _ c (V0 m c) _ main_v14 (by exact (by decide : ∀ w, Pipeline.arrRef spec0 w ≠ main_v14))).trans
    (V_scale m c)

/-- The pipeline's output array is, after the region, what the ten points wrote. -/
theorem after_output (c : Dev nD) :
    Pipeline.withArrays (cfgs 0).spec c (V0 m c) (fun w => (dats m 0 c).arrAt w (cfgs 0).N) (Proc.devRef .tc main_v16)
      = (dats m 0 c).arrAt 4 cfg0.N :=
  Pipeline.withArrays_arr spec0 launch0.win.arr_inj c (V0 m c) (fun w => (dats m 0 c).arrAt w cfg0.N) 4

/-- The result buffer after the host operations that follow the region. -/
theorem result_eq (c : Dev nD) : Pipeline.afterTail₀ cfgs (dats m) 0 (V0 m) [hostOps1] c main_v29
    = Cert.Edges.tail Cert.Edges.rel (m ((c.tc : Thread nD τ).loc main_arg3))
        (Cert.Edges.rows Cert.Edges.rel (m ((c.tc : Thread nD τ).loc main_arg3))
          (Array.layer (m ((c.tc : Thread nD τ).loc main_arg0)) (m ((c.tc : Thread nD τ).loc main_arg1))
            (m ((c.tc : Thread nD τ).loc main_arg2))
            (shapeCast S50000x1 (Cert.Edges.scale Cert.Edges.rel (m ((c.tc : Thread nD τ).loc main_arg3))) shapeCasts_S50000_S50000x1))) := by
  rw [← output_eq m c]
  unfold Pipeline.afterTail₀
  show StableHlo.after hostOps1 _ (Proc.devRef .tc main_v29) = _
  read_results
  rw [after_dst, after_src, after_scale, after_output]
  unfold Cert.Edges.tail Cert.Edges.rows Cert.Edges.srcCol Cert.Edges.srcN
  rfl

/-! ## The run -/

/-- Every weakly fair execution of the kernel program terminates, with the result buffer at the tail of the gathered
    rows of the scaled dense layer and the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v29)
        = Cert.Edges.tail Cert.Edges.rel (m ((c.tc : Thread nD τ).loc main_arg3))
            (Cert.Edges.rows Cert.Edges.rel (m ((c.tc : Thread nD τ).loc main_arg3))
              (Array.layer (m ((c.tc : Thread nD τ).loc main_arg0)) (m ((c.tc : Thread nD τ).loc main_arg1))
                (m ((c.tc : Thread nD τ).loc main_arg2))
                (shapeCast S50000x1 (Cert.Edges.scale Cert.Edges.rel (m ((c.tc : Thread nD τ).loc main_arg3))) shapeCasts_S50000_S50000x1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v29 (Pipeline.mem_restRefs_of main_v29 (by decide) (by decide))).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c)⟩)
    (run_main m ρ)

end Cert.KernelIdeal.HostRun

end
-- ==== Proof.RefRun.lean ====
/-
  The reference program's run.

  The reference is a straight line of 53 host operations: each writes one buffer of its own from buffers written
  before it (the one outlined function, a `where`, contributes its single `select` in the place of its call). Every
  weakly fair execution of such a line terminates with each buffer at the fold of the operations over the launch
  contents; read at the result buffer the fold is
      tail (message), with message (e, q) = affine (srcN e, q) · scale (srcN e),
  where `affine = x · Wᵀ + b` is the dense layer on the 50000 nodes, `scale` the nodes' inverse-square-root degree
  factors, `srcN e` edge `e`'s source node, and `tail` sums the messages per destination node and multiplies each
  node's row by that node's factor (the edge-side functions of the specification).
-/
import proofs.«125393_j72086731096478_2_alg».proof.Proof.Gen.ReferenceIdeal
import proofs.«125393_j72086731096478_2_alg».proof.Proof.EdgeSpec
import proofs.«125393_j72086731096478_2_alg».proof.Proof.LibHostRead
import proofs.«125393_j72086731096478_2_alg».proof.Proof.LibKeep
import Idealize.ShloMosaic.Lib.StableHlo.Run

noncomputable section

namespace Cert.ReferenceIdeal.HostRun

open Cert.HostRead Cert.Keep Cert.ReferenceIdeal Cert.ReferenceIdeal.Gen Idealize.ShloMosaic Idealize.ShloMosaic.TcCoe Idealize.SL.Sem Idealize.ShloMosaic.StableHlo

section Ops

variable {F : FTy → Type} [FloatOps F]

/-- The program's 53 operations, in order. -/
abbrev ops : List (HloOp τ sig (Elt F)) :=
  [ unary main_arg1 main_v0 ((transpose S256x128 [1, 0] · transposes_S128x256_S256x128_1_0) : (⟨S128x256, .f32⟩ : BufTy).Contents (Elt F) → (⟨S256x128, .f32⟩ : BufTy).Contents (Elt F)),
    binary main_arg0 main_v0 main_v1 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg2 main_v2 (broadcastInDim S1x128 ![1] bcast_S128_S1x128_1 : (⟨S128, .f32⟩ : BufTy).Contents (Elt F) → (⟨S1x128, .f32⟩ : BufTy).Contents (Elt F)),
    unary main_v2 main_v3 (broadcastInDim S50000x128 ![0, 1] bcast_S1x128_S50000x128_0_1 : (⟨S1x128, .f32⟩ : BufTy).Contents (Elt F) → (⟨S50000x128, .f32⟩ : BufTy).Contents (Elt F)),
    binary main_v1 main_v3 main_v4 (addf : (⟨S50000x128, .f32⟩ : BufTy).Contents (Elt F) → (⟨S50000x128, .f32⟩ : BufTy).Contents (Elt F) → (⟨S50000x128, .f32⟩ : BufTy).Contents (Elt F)),
    unary main_arg3 main_v5 ((extractStridedSlice S1x625000 ![0, 0] · slices_S2x625000_S1x625000_0_0) : (⟨S2x625000, .i32⟩ : BufTy).Contents (Elt F) → (⟨S1x625000, .i32⟩ : BufTy).Contents (Elt F)),
    reshape main_v5 main_v6 rfl shapeCasts_S1x625000_S625000,
    unary main_arg3 main_v7 ((extractStridedSlice S1x625000 ![1, 0] · slices_S2x625000_S1x625000_1_0) : (⟨S2x625000, .i32⟩ : BufTy).Contents (Elt F) → (⟨S1x625000, .i32⟩ : BufTy).Contents (Elt F)),
    reshape main_v7 main_v8 rfl shapeCasts_S1x625000_S625000,
    nullary main_cst (constant S_ .f32 0x3F800000#32),
    unary main_cst main_v9 (broadcastInDim S625000 ![] bcast_S_S625000 : (⟨S_, .f32⟩ : BufTy).Contents (Elt F) → (⟨S625000, .f32⟩ : BufTy).Contents (Elt F)),
    nullary main_cst_0 (constant S_ .f32 0x00000000#32),
    unary main_cst_0 main_v10 (broadcastInDim S50000 ![] bcast_S_S50000 : (⟨S_, .f32⟩ : BufTy).Contents (Elt F) → (⟨S50000, .f32⟩ : BufTy).Contents (Elt F)),
    unary main_v6 main_v11 (broadcastInDim S625000x1 ![0] bcast_S625000_S625000x1_0 : (⟨S625000, .i32⟩ : BufTy).Contents (Elt F) → (⟨S625000x1, .i32⟩ : BufTy).Contents (Elt F)),
    ternary main_v10 main_v11 main_v9 main_v12 ((fun x i u => Host.scatterAdd scatter_S50000_S625000x1_S625000_n_0_0_1 x i u) : (⟨S50000, .f32⟩ : BufTy).Contents (Elt F) → (⟨S625000x1, .i32⟩ : BufTy).Contents (Elt F) → (⟨S625000, .f32⟩ : BufTy).Contents (Elt F) → (⟨S50000, .f32⟩ : BufTy).Contents (Elt F)),
    nullary main_cst_1 (constant S_ .f32 0x00000000#32),
    unary main_cst_1 main_v13 (broadcastInDim S50000 ![] bcast_S_S50000 : (⟨S_, .f32⟩ : BufTy).Contents (Elt F) → (⟨S50000, .f32⟩ : BufTy).Contents (Elt F)),
    binary main_v12 main_v13 main_v14 (cmpf .ogt : (⟨S50000, .f32⟩ : BufTy).Contents (Elt F) → (⟨S50000, .f32⟩ : BufTy).Contents (Elt F) → (⟨S50000, .i1⟩ : BufTy).Contents (Elt F)),
    nullary main_cst_2 (constant S_ .f32 0x3F800000#32),
    unary main_cst_2 main_v15 (broadcastInDim S50000 ![] bcast_S_S50000 : (⟨S_, .f32⟩ : BufTy).Contents (Elt F) → (⟨S50000, .f32⟩ : BufTy).Contents (Elt F)),
    binary main_v12 main_v15 main_v16 (maximumf : (⟨S50000, .f32⟩ : BufTy).Contents (Elt F) → (⟨S50000, .f32⟩ : BufTy).Contents (Elt F) → (⟨S50000, .f32⟩ : BufTy).Contents (Elt F)),
    unary main_v16 main_v17 (Host.rsqrt : (⟨S50000, .f32⟩ : BufTy).Contents (Elt F) → (⟨S50000, .f32⟩ : BufTy).Contents (Elt F)),
    nullary main_cst_3 (constant S_ .f32 0x00000000#32),
    unary main_cst_3 main_v18 (broadcastInDim S50000 ![] bcast_S_S50000 : (⟨S_, .f32⟩ : BufTy).Contents (Elt F) → (⟨S50000, .f32⟩ : BufTy).Contents (Elt F)),
    TRef.ternary (TRef.of (T := ⟨S50000, .i1⟩) main_v14) (TRef.of (T := ⟨S50000, .f32⟩) main_v17) (TRef.of (T := ⟨S50000, .f32⟩) main_v18) (TRef.of (T := ⟨S50000, .f32⟩) main_v19) select,
    nullary main_c (constantI S_ 32 0#32),
    unary main_c main_v20 (broadcastInDim S625000 ![] bcast_S_S625000 : (⟨S_, .i32⟩ : BufTy).Contents (Elt F) → (⟨S625000, .i32⟩ : BufTy).Contents (Elt F)),
    binary main_v8 main_v20 main_v21 (cmpi .slt : (⟨S625000, .i32⟩ : BufTy).Contents (Elt F) → (⟨S625000, .i32⟩ : BufTy).Contents (Elt F) → (⟨S625000, .i1⟩ : BufTy).Contents (Elt F)),
    nullary main_c_4 (constantI S_ 32 50000#32),
    unary main_c_4 main_v22 (broadcastInDim S625000 ![] bcast_S_S625000 : (⟨S_, .i32⟩ : BufTy).Contents (Elt F) → (⟨S625000, .i32⟩ : BufTy).Contents (Elt F)),
    binary main_v8 main_v22 main_v23 (addi : (⟨S625000, .i32⟩ : BufTy).Contents (Elt F) → (⟨S625000, .i32⟩ : BufTy).Contents (Elt F) → (⟨S625000, .i32⟩ : BufTy).Contents (Elt F)),
    ternary main_v21 main_v23 main_v8 main_v24 (select : (⟨S625000, .i1⟩ : BufTy).Contents (Elt F) → (⟨S625000, .i32⟩ : BufTy).Contents (Elt F) → (⟨S625000, .i32⟩ : BufTy).Contents (Elt F) → (⟨S625000, .i32⟩ : BufTy).Contents (Elt F)),
    unary main_v24 main_v25 (broadcastInDim S625000x1 ![0] bcast_S625000_S625000x1_0 : (⟨S625000, .i32⟩ : BufTy).Contents (Elt F) → (⟨S625000x1, .i32⟩ : BufTy).Contents (Elt F)),
    binary main_v4 main_v25 main_v26 ((fun x i => Host.gather gather_S50000x128_S625000x1_S625000x128_1_0_n_n_0_1_1128 x i) : (⟨S50000x128, .f32⟩ : BufTy).Contents (Elt F) → (⟨S625000x1, .i32⟩ : BufTy).Contents (Elt F) → (⟨S625000x128, .f32⟩ : BufTy).Contents (Elt F)),
    nullary main_c_5 (constantI S_ 32 0#32),
    unary main_c_5 main_v27 (broadcastInDim S625000 ![] bcast_S_S625000 : (⟨S_, .i32⟩ : BufTy).Contents (Elt F) → (⟨S625000, .i32⟩ : BufTy).Contents (Elt F)),
    binary main_v8 main_v27 main_v28 (cmpi .slt : (⟨S625000, .i32⟩ : BufTy).Contents (Elt F) → (⟨S625000, .i32⟩ : BufTy).Contents (Elt F) → (⟨S625000, .i1⟩ : BufTy).Contents (Elt F)),
    nullary main_c_6 (constantI S_ 32 50000#32),
    unary main_c_6 main_v29 (broadcastInDim S625000 ![] bcast_S_S625000 : (⟨S_, .i32⟩ : BufTy).Contents (Elt F) → (⟨S625000, .i32⟩ : BufTy).Contents (Elt F)),
    binary main_v8 main_v29 main_v30 (addi : (⟨S625000, .i32⟩ : BufTy).Contents (Elt F) → (⟨S625000, .i32⟩ : BufTy).Contents (Elt F) → (⟨S625000, .i32⟩ : BufTy).Contents (Elt F)),
    ternary main_v28 main_v30 main_v8 main_v31 (select : (⟨S625000, .i1⟩ : BufTy).Contents (Elt F) → (⟨S625000, .i32⟩ : BufTy).Contents (Elt F) → (⟨S625000, .i32⟩ : BufTy).Contents (Elt F) → (⟨S625000, .i32⟩ : BufTy).Contents (Elt F)),
    unary main_v31 main_v32 (broadcastInDim S625000x1 ![0] bcast_S625000_S625000x1_0 : (⟨S625000, .i32⟩ : BufTy).Contents (Elt F) → (⟨S625000x1, .i32⟩ : BufTy).Contents (Elt F)),
    binary main_v19 main_v32 main_v33 ((fun x i => Host.gather gather_S50000_S625000x1_S625000_n_0_n_n_0_1_1 x i) : (⟨S50000, .f32⟩ : BufTy).Contents (Elt F) → (⟨S625000x1, .i32⟩ : BufTy).Contents (Elt F) → (⟨S625000, .f32⟩ : BufTy).Contents (Elt F)),
    unary main_v33 main_v34 (broadcastInDim S625000x1 ![0] bcast_S625000_S625000x1_0 : (⟨S625000, .f32⟩ : BufTy).Contents (Elt F) → (⟨S625000x1, .f32⟩ : BufTy).Contents (Elt F)),
    unary main_v34 main_v35 (broadcastInDim S625000x128 ![0, 1] bcast_S625000x1_S625000x128_0_1 : (⟨S625000x1, .f32⟩ : BufTy).Contents (Elt F) → (⟨S625000x128, .f32⟩ : BufTy).Contents (Elt F)),
    binary main_v26 main_v35 main_v36 (mulf : (⟨S625000x128, .f32⟩ : BufTy).Contents (Elt F) → (⟨S625000x128, .f32⟩ : BufTy).Contents (Elt F) → (⟨S625000x128, .f32⟩ : BufTy).Contents (Elt F)),
    nullary main_cst_7 (constant S_ .f32 0x00000000#32),
    unary main_cst_7 main_v37 (broadcastInDim S50000x128 ![] bcast_S_S50000x128 : (⟨S_, .f32⟩ : BufTy).Contents (Elt F) → (⟨S50000x128, .f32⟩ : BufTy).Contents (Elt F)),
    unary main_v6 main_v38 (broadcastInDim S625000x1 ![0] bcast_S625000_S625000x1_0 : (⟨S625000, .i32⟩ : BufTy).Contents (Elt F) → (⟨S625000x1, .i32⟩ : BufTy).Contents (Elt F)),
    ternary main_v37 main_v38 main_v36 main_v39 ((fun x i u => Host.scatterAdd scatter_S50000x128_S625000x1_S625000x128_1_0_0_1 x i u) : (⟨S50000x128, .f32⟩ : BufTy).Contents (Elt F) → (⟨S625000x1, .i32⟩ : BufTy).Contents (Elt F) → (⟨S625000x128, .f32⟩ : BufTy).Contents (Elt F) → (⟨S50000x128, .f32⟩ : BufTy).Contents (Elt F)),
    unary main_v19 main_v40 (broadcastInDim S50000x1 ![0] bcast_S50000_S50000x1_0 : (⟨S50000, .f32⟩ : BufTy).Contents (Elt F) → (⟨S50000x1, .f32⟩ : BufTy).Contents (Elt F)),
    unary main_v40 main_v41 (broadcastInDim S50000x128 ![0, 1] bcast_S50000x1_S50000x128_0_1 : (⟨S50000x1, .f32⟩ : BufTy).Contents (Elt F) → (⟨S50000x128, .f32⟩ : BufTy).Contents (Elt F)),
    binary main_v39 main_v41 main_v42 (mulf : (⟨S50000x128, .f32⟩ : BufTy).Contents (Elt F) → (⟨S50000x128, .f32⟩ : BufTy).Contents (Elt F) → (⟨S50000x128, .f32⟩ : BufTy).Contents (Elt F)) ]

set_option maxRecDepth 8192 in
/-- The program is the sequence of these operations. -/
theorem main_eq (c : Dev nD) : main (F := F) c = seq ops := rfl

/-- The program scopes no buffer and no semaphore. -/
theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation touches TensorCore buffers only. -/
theorem ops_sub : (ops : List (HloOp τ sig (Elt F))).Forall fun op => op.bufs ⊆ tcRefs τ sig :=
  ⟨unary_bufs_sub .., binary_bufs_sub .., unary_bufs_sub .., unary_bufs_sub .., binary_bufs_sub .., unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩

end Ops

/-- The dense layer `x · Wᵀ + b` on all nodes, as the reference forms it: `W` transposed, a plain product, the bias
    made a row and spread over the rows. -/
def affine (x : FVec Ideal S50000x256 .f32) (W : FVec Ideal S128x256 .f32) (b : FVec Ideal S128 .f32) : FVec Ideal S50000x128 .f32 :=
  addf (F := Ideal) (Host.dotGeneral (F := Ideal) dot_S50000x256_S256x128_S50000x128_1_0_0_1_n_n none x
      (transpose S256x128 [1, 0] W transposes_S128x256_S256x128_1_0))
    (broadcastInDim S50000x128 ![0, 1] bcast_S1x128_S50000x128_0_1 (broadcastInDim S1x128 ![1] bcast_S128_S1x128_1 b))

/-- The per-edge messages: the source node's row of the dense layer times the source node's factor. -/
def message (x : FVec Ideal S50000x256 .f32) (W : FVec Ideal S128x256 .f32) (b : FVec Ideal S128 .f32) (ei : IVec S2x625000 32) :
    FVec Ideal S625000x128 .f32 :=
  mulf (F := Ideal) (Cert.Edges.rows Cert.Edges.rel ei (affine x W b)) (Cert.Edges.factors Cert.Edges.rel ei)

set_option maxRecDepth 8192 in
/-- The fold of the operations read at the result buffer is the tail of the messages. -/
theorem result_eq (m : (ℓ : Loc nD τ sig) → Buf (Elt Ideal) ℓ) (c : Dev nD) :
    after (ops (F := Ideal)) (launchContents m c) (Proc.devRef .tc main_v42)
      = Cert.Edges.tail Cert.Edges.rel (m ((c.tc : Thread nD τ).loc main_arg3))
          (message (m ((c.tc : Thread nD τ).loc main_arg0)) (m ((c.tc : Thread nD τ).loc main_arg1))
            (m ((c.tc : Thread nD τ).loc main_arg2)) (m ((c.tc : Thread nD τ).loc main_arg3))) := by
  read_results
  unfold Cert.Edges.tail message affine Cert.Edges.rows Cert.Edges.factors Cert.Edges.srcCol Cert.Edges.srcN Cert.Edges.scale
    Cert.Edges.deg Cert.Edges.src Cert.Edges.dst
  rfl

set_option maxRecDepth 8192 in
/-- No operation writes an argument buffer. -/
theorem kept (m : (ℓ : Loc nD τ sig) → Buf (Elt Ideal) ℓ) (c : Dev nD) :
    after (ops (F := Ideal)) (launchContents m c) (Proc.devRef .tc main_arg0) = launchContents m c (Proc.devRef .tc main_arg0)
    ∧ after (ops (F := Ideal)) (launchContents m c) (Proc.devRef .tc main_arg1) = launchContents m c (Proc.devRef .tc main_arg1)
    ∧ after (ops (F := Ideal)) (launchContents m c) (Proc.devRef .tc main_arg2) = launchContents m c (Proc.devRef .tc main_arg2)
    ∧ after (ops (F := Ideal)) (launchContents m c) (Proc.devRef .tc main_arg3) = launchContents m c (Proc.devRef .tc main_arg3) := by
  refine ⟨?_, ?_, ?_, ?_⟩
  · keeps ops
  · keeps ops
  · keeps ops
  · keeps ops

/-- Every weakly fair execution of the reference terminates, with the result buffer at the tail of the messages and
    the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v42)
        = Cert.Edges.tail Cert.Edges.rel (m ((c.tc : Thread nD τ).loc main_arg3))
            (message (m ((c.tc : Thread nD τ).loc main_arg0)) (m ((c.tc : Thread nD τ).loc main_arg1))
              (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v42).trans (result_eq m c),
      (h c main_arg0).trans (kept m c).1,
      (h c main_arg1).trans (kept m c).2.1,
      (h c main_arg2).trans (kept m c).2.2.1,
      (h c main_arg3).trans (kept m c).2.2.2⟩)
    (run_seq scopedRefs_eq scopedSems_eq defs main (fun _ => ops) main_eq (fun _ => ops_sub) m ρ)

end Cert.ReferenceIdeal.HostRun

end
-- ==== Proof.LibHostLin.lean ====
/-
  The host's dense layer, read at an entry.

  On the extended reals the host computes a dense layer of an [N, K] array x as max (x · W + b, 0): a product of plain
  dimension numbers, the bias vector b : [C] spread first to a row [1, C] and then over the N rows, and the maximum with
  the zero scalar spread over [N, C]. At the entry (p, q) that is max ((∑ k, x (p, k) · W (k, q)) + b q) 0; without the
  maximum, (∑ k, x (p, k) · W (k, q)) + b q. A bias vector reshaped to a row has entry (0, q) equal to entry q. The
  extents are arbitrary.
-/
import Idealize.ShloMosaic.Lib.ValueLayout
import Idealize.ShloMosaic.Lib.Pipeline.Value
import proofs.«125393_j72086731096478_2_alg».proof.Proof.LibPlainDot

noncomputable section

namespace HostLin

open Idealize.ShloMosaic Idealize.ShloMosaic.ValueIdx
open scoped BigOperators

variable {α : Type}

/-- A vector spread to a row and then over N rows: entry (p, q) is entry q. -/
theorem bias_bcast_apply {N C : Nat}
    (h1 : (⟨1, ![C]⟩ : Shape).BroadcastsInDim ⟨2, ![1, C]⟩ (![1] : Fin 1 → Fin 2))
    (h2 : (⟨2, ![1, C]⟩ : Shape).BroadcastsInDim ⟨2, ![N, C]⟩ (![0, 1] : Fin 2 → Fin 2))
    (b : (⟨1, ![C]⟩ : Shape).Idx → α) (p : Fin N) (q : Fin C) :
    broadcastInDim ⟨2, ![N, C]⟩ ![0, 1] h2 (broadcastInDim ⟨2, ![1, C]⟩ ![1] h1 b) (ix2 p q) = b (ix1 q) := by
  rw [broadcastInDim_apply ![0, 1] h2 _ (ix2 p q) (ix2 (0 : Fin 1) q) (fun a => by
    match a with
    | ⟨0, _⟩ => simp [ix2]
    | ⟨1, _⟩ =>
      show q.val = if C = 1 then 0 else q.val
      split_ifs with hC
      · subst hC; omega
      · rfl)]
  rw [broadcastInDim_apply ![1] h1 b (ix2 (0 : Fin 1) q) (ix1 q) (fun a => by
    match a with
    | ⟨0, _⟩ =>
      show q.val = if C = 1 then 0 else q.val
      split_ifs with hC
      · subst hC; omega
      · rfl)]

/-- A scalar spread over a shape is that scalar at every index. -/
theorem scalar_bcast_apply {t : Shape} (h : (⟨0, ![]⟩ : Shape).BroadcastsInDim t (![] : Fin 0 → Fin t.rank))
    (y : (⟨0, ![]⟩ : Shape).Idx → α) (i : t.Idx) : broadcastInDim t ![] h y i = y ix0 :=
  broadcastInDim_apply ![] h y i ix0 (fun a => a.elim0)

/-- A vector reshaped to a row: entry (0, q) is entry q. -/
theorem row_apply {C : Nat} (h : (⟨1, ![C]⟩ : Shape).ShapeCasts ⟨2, ![1, C]⟩) (b : (⟨1, ![C]⟩ : Shape).Idx → α) (q : Fin C) :
    shapeCast ⟨2, ![1, C]⟩ b h (ix2 (0 : Fin 1) q) = b (ix1 q) :=
  shapeCast_a_1a_apply b h 0 q

/-- The host's affine layer x · W + b at (p, q). -/
theorem affine_apply {N K C : Nat} (d : DotDims ⟨2, ![N, K]⟩ ⟨2, ![K, C]⟩ ⟨2, ![N, C]⟩) (hd : d = DotDims.plain N K C)
    (h1 : (⟨1, ![C]⟩ : Shape).BroadcastsInDim ⟨2, ![1, C]⟩ (![1] : Fin 1 → Fin 2))
    (h2 : (⟨2, ![1, C]⟩ : Shape).BroadcastsInDim ⟨2, ![N, C]⟩ (![0, 1] : Fin 2 → Fin 2))
    (x : FVec Ideal ⟨2, ![N, K]⟩ .f32) (W : FVec Ideal ⟨2, ![K, C]⟩ .f32) (b : FVec Ideal ⟨1, ![C]⟩ .f32) (p : Fin N) (q : Fin C) :
    addf (Host.dotGeneral d none x W) (broadcastInDim ⟨2, ![N, C]⟩ ![0, 1] h2 (broadcastInDim ⟨2, ![1, C]⟩ ![1] h1 b)) (ix2 p q)
      = (∑ k : Fin K, x (ix2 p k) * W (ix2 k q)) + b (ix1 q) := by
  subst hd
  rw [addf_apply, bias_bcast_apply]
  exact congrArg (· + b (ix1 q)) (Cert.PlainDot.dotGeneral_apply none .single x W p q)

/-- The host's dense layer max (x · W + b, 0) at (p, q). -/
theorem relu_apply {N K C : Nat} (d : DotDims ⟨2, ![N, K]⟩ ⟨2, ![K, C]⟩ ⟨2, ![N, C]⟩) (hd : d = DotDims.plain N K C)
    (h1 : (⟨1, ![C]⟩ : Shape).BroadcastsInDim ⟨2, ![1, C]⟩ (![1] : Fin 1 → Fin 2))
    (h2 : (⟨2, ![1, C]⟩ : Shape).BroadcastsInDim ⟨2, ![N, C]⟩ (![0, 1] : Fin 2 → Fin 2))
    (h0 : (⟨0, ![]⟩ : Shape).BroadcastsInDim ⟨2, ![N, C]⟩ (![] : Fin 0 → Fin 2))
    (x : FVec Ideal ⟨2, ![N, K]⟩ .f32) (W : FVec Ideal ⟨2, ![K, C]⟩ .f32) (b : FVec Ideal ⟨1, ![C]⟩ .f32) (p : Fin N) (q : Fin C) :
    maximumf (addf (Host.dotGeneral d none x W) (broadcastInDim ⟨2, ![N, C]⟩ ![0, 1] h2 (broadcastInDim ⟨2, ![1, C]⟩ ![1] h1 b)))
        (broadcastInDim ⟨2, ![N, C]⟩ ![] h0 (constant (F := Ideal) ⟨0, ![]⟩ .f32 0x00000000#32)) (ix2 p q)
      = max ((∑ k : Fin K, x (ix2 p k) * W (ix2 k q)) + b (ix1 q)) 0 := by
  rw [maximumf_apply, affine_apply d hd h1 h2, scalar_bcast_apply, constant_apply]
  exact congrArg (max _) Ideal.ofBits_zero_f32

end HostLin

end
-- ==== Proof.Bridge.lean ====
/-
  The two programs' per-edge rows are the same array.

  The kernel multiplies each node's row of the dense layer `x · Wᵀ + b` by the node's factor BEFORE the rows are
  gathered at the edges' source nodes; the reference gathers the rows of the unscaled layer and the nodes' factors
  separately and multiplies AFTER. Both read row `srcN e` (edge `e`'s source node, clamped into the node range), so at
  edge `e` and feature `q` both hold
      ((∑ k, x (srcN e, k) · W (q, k)) + b q) · scale (srcN e).
  The kernel's node factors reach its body as a 50000 × 1 column; entry `(n, 0)` of the column is the vector's entry `n`.
-/
import proofs.«125393_j72086731096478_2_alg».proof.Proof.KernelArray
import proofs.«125393_j72086731096478_2_alg».proof.Proof.RefRun
import proofs.«125393_j72086731096478_2_alg».proof.Proof.EdgeSpec
import proofs.«125393_j72086731096478_2_alg».proof.Proof.LibHostLin
import proofs.«125393_j72086731096478_2_alg».proof.Proof.LibKeepdims
import Idealize.ShloMosaic.Lib.ValueIdx
import Idealize.ShloMosaic.Lib.ValueLayout

noncomputable section

namespace Cert.Bridge

open Idealize.ShloMosaic Idealize.ShloMosaic.ValueIdx
open Cert.ReferenceIdeal Cert.ReferenceIdeal.Gen Cert.ReferenceIdeal.HostRun
open scoped BigOperators

/-- The reference's dense layer at node `p`, feature `q`: row `p` of `x` against row `q` of `W`, plus `b q`. -/
theorem affine_apply (x : FVec Ideal S50000x256 .f32) (W : FVec Ideal S128x256 .f32) (b : FVec Ideal S128 .f32)
    (p : Fin 50000) (q : Fin 128) :
    affine x W b (ix2 p q) = (∑ k : Fin 256, x (ix2 p k) * W (ix2 q k)) + b (ix1 q) := by
  unfold affine
  refine (HostLin.affine_apply (N := 50000) (K := 256) (C := 128) dot_S50000x256_S256x128_S50000x128_1_0_0_1_n_n rfl
    bcast_S128_S1x128_1 bcast_S1x128_S50000x128_0_1 x _ b p q).trans ?_
  refine congrArg (· + b (ix1 q)) (Finset.sum_congr rfl fun k _ => ?_)
  rw [transpose_ix2_apply]

/-- The kernel's scaled layer is the reference's dense layer with each row multiplied by its node's factor. -/
theorem layer_eq (x : FVec Ideal S50000x256 .f32) (W : FVec Ideal S128x256 .f32) (b : FVec Ideal S128 .f32)
    (s : FVec Ideal S50000 .f32) (h : S50000.ShapeCasts S50000x1) :
    Cert.KernelIdeal.Array.layer x W b (shapeCast S50000x1 s h) = fun i => affine x W b i * s (ix1 (i 0)) := by
  funext i
  obtain ⟨p, q, rfl⟩ : ∃ (p : Fin 50000) (q : Fin 128), i = ix2 p q := ⟨i 0, i 1, eq_ix2 i⟩
  show ((∑ k : Fin 256, x (ix2 p k) * W (ix2 q k)) + b (ix1 q)) * shapeCast S50000x1 s h (ix2 p (0 : Fin 1))
    = affine x W b (ix2 p q) * s (ix1 p)
  rw [Keepdims.shapeCast_a_a1_apply, affine_apply]

/-- The rows of the kernel's scaled layer at the edges' source nodes are the reference's messages. -/
theorem rows_layer (x : FVec Ideal S50000x256 .f32) (W : FVec Ideal S128x256 .f32) (b : FVec Ideal S128 .f32)
    (ei : IVec S2x625000 32) (h : S50000.ShapeCasts S50000x1) :
    Cert.Edges.rows Cert.Edges.rel ei
        (Cert.KernelIdeal.Array.layer x W b (shapeCast S50000x1 (Cert.Edges.scale Cert.Edges.rel ei) h))
      = message x W b ei := by
  rw [layer_eq]
  unfold message
  exact Cert.Edges.rows_scaled Cert.Edges.rel ei (affine x W b)

end Cert.Bridge

end
-- ==== Proof.lean ====
/-
  A graph-convolution layer on 50000 nodes and 625000 edges, 256 input and 128 output features: the kernel program
  against its reference, on the extended reals.

  Both programs compute, for node `t` and feature `q`,
      scale t · ∑ over the edges e with destination t of (∑ k, x (src e, k) · W (q, k) + b q) · scale (src e),
  where `scale n` is `1 / sqrt (deg n)` for a node with at least one incoming edge and `0` otherwise. They differ in
  WHERE the source node's factor is applied. The kernel program computes the dense layer `x · Wᵀ + b` in a tiled
  region of ten row blocks and multiplies row `n` by `scale n` inside the region, before the rows are gathered at the
  edges' source nodes; the reference gathers the rows of the unscaled layer and the factors separately and multiplies
  per edge. Gathering commutes with a per-row factor (both sides read the same row), so the two per-edge arrays are equal
  entry by entry, and the two programs then apply the same sum over destination nodes and the same final factor. No
  law of the arithmetic is used beyond reading each operation at an index, so no finiteness of the inputs is needed:
  the precondition is never opened.

  The modules: `KernelBlock` (one block of the region's output, entry by entry), `KernelArray` (the ten blocks tile
  the output array), `EdgeSpec` (the edge-side functions both programs share), `KernelRun` and `RefRun` (each
  program's run, its result as `tail` of its per-edge rows), `Bridge` (the per-edge rows agree).
-/
import proofs.«125393_j72086731096478_2_alg».proof.Defs
import proofs.«125393_j72086731096478_2_alg».proof.Proof.Gen.Kernel
import proofs.«125393_j72086731096478_2_alg».proof.Proof.Gen.Kernel.Frame
import proofs.«125393_j72086731096478_2_alg».proof.Proof.Gen.KernelIdeal
import proofs.«125393_j72086731096478_2_alg».proof.Proof.Gen.KernelIdeal.Frame
import proofs.«125393_j72086731096478_2_alg».proof.Proof.Gen.ReferenceIdeal
import proofs.«125393_j72086731096478_2_alg».proof.Proof.Gen.Pre_finite_inputs
import proofs.«125393_j72086731096478_2_alg».proof.Proof.KernelRun
import proofs.«125393_j72086731096478_2_alg».proof.Proof.RefRun
import proofs.«125393_j72086731096478_2_alg».proof.Proof.Bridge
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- So does the kernel program on the extended reals. -/
theorem frame_kernelIdeal : Cert.frame_KernelIdeal := fun m ρ _ => Cert.KernelIdeal.Gen.frame m ρ

/-- The reference runs and keeps its arguments: its run, with the result forgotten. -/
theorem frame_reference : Cert.frame_ReferenceIdeal := fun m ρ _ =>
  (θ_run Cert.ReferenceIdeal.defs _ _).mono (fun _ h c => (h c).2) (Cert.ReferenceIdeal.HostRun.run m ρ)

/-- From memories that agree on the arguments both programs end with the same result: each result is the tail of the
    program's per-edge rows, and the per-edge rows agree. -/
theorem algebraic : Cert.algebraic_KernelIdeal_ReferenceIdeal := by
  intro m ρ m' ρ' _ hagree
  refine ⟨_, Cert.KernelIdeal.HostRun.run m ρ, ?_⟩
  refine (θ_run Cert.ReferenceIdeal.defs _ _).mono (fun _ h c => ⟨(h c).1.trans ?_, (h c).2⟩)
    (Cert.ReferenceIdeal.HostRun.run m' ρ')
  rw [(hagree c).1, (hagree c).2.1, (hagree c).2.2.1, (hagree c).2.2.2]
  exact (congrArg (Cert.Edges.tail Cert.Edges.rel _) (Cert.Bridge.rows_layer _ _ _ _ _)).symm

theorem claim : Cert.Claim := ⟨Cert.Kernel.Gen.facts, Cert.KernelIdeal.Gen.facts, Cert.ReferenceIdeal.Gen.facts,
  Cert.Pre_finite_inputs.Gen.facts, frame_kernel, frame_kernelIdeal, frame_reference, trivial, algebraic⟩

end Cert.Proof

end
